-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v20_0)) (v2 : (c : Dev Cert.KernelIdeal.nD) → Buf (Elt Ideal) ((c.tc : Thread Cert.KernelIdeal.nD Cert.KernelIdeal.τ).loc Cert.KernelIdeal.main_v19_1)) (v3 : (c : Dev Cert.KernelIdeal.nD) → Buf (Elt Ideal) ((c.tc : Thread Cert.KernelIdeal.nD Cert.KernelIdeal.τ).loc Cert.KernelIdeal.main_v19_2)) (v4 : (c : Dev Cert.KernelIdeal.nD) → Buf (Elt Ideal) ((c.tc : Thread Cert.KernelIdeal.nD Cert.KernelIdeal.τ).loc Cert.KernelIdeal.main_v20_1)) (v5 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v20_0) = v1 c
          ∧ r.2.mem ((c.tc : Thread Cert.KernelIdeal.nD Cert.KernelIdeal.τ).loc Cert.KernelIdeal.main_v19_1) = v2 c
          ∧ r.2.mem ((c.tc : Thread Cert.KernelIdeal.nD Cert.KernelIdeal.τ).loc Cert.KernelIdeal.main_v19_2) = v3 c
          ∧ r.2.mem ((c.tc : Thread Cert.KernelIdeal.nD Cert.KernelIdeal.τ).loc Cert.KernelIdeal.main_v20_1) = v4 c
          ∧ r.2.mem ((c.tc : Thread Cert.KernelIdeal.nD Cert.KernelIdeal.τ).loc Cert.KernelIdeal.main_v20_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_v58) = v4 c
          ∧ r.2.mem ((c.tc : Thread Cert.ReferenceIdeal.nD Cert.ReferenceIdeal.τ).loc Cert.ReferenceIdeal.main_v59) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048x4096 : Shape := ⟨2, ![2048, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_arg11 : FVec F S4096x1024 .f32) (main_arg12 : FVec F S1024x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S4096x1024 .f32 := Host.absf main_arg11
  let main_cst_20 : FVec F S_ .f32 := constant S_ .f32 0x7F800000#32
  let main_v55 : FVec F S4096x1024 .f32 := broadcastInDim S4096x1024 ![] bcast_S_S4096x1024 main_cst_20
  let main_v56 : IVec S4096x1024 1 := cmpf .olt main_v54 main_v55
  let main_c_21 : IVec S_ 1 := constantI S_ 1 1#1
  let main_v57 : IVec S_ 1 := (fun x v => Host.reduce IntOp.andi x v reducesTo_S4096x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  main_v63

def fn_part2 {F : FTy → Type} [FloatOps F] (main_arg7 : FVec F S4096x4096 .f32) (main_arg8 : FVec F S1024x4096 .f32) (main_arg9 : FVec F S4096x1024 .f32) (main_arg10 : FVec F S1024x1024 .f32) (main_arg11 : FVec F S4096x1024 .f32) (main_arg12 : FVec F S1024x1024 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S1024x4096 .f32 := Host.absf main_arg8
  let main_cst_14 : FVec F S_ .f32 := constant S_ .f32 0x7F800000#32
  let main_v40 : FVec F S1024x4096 .f32 := broadcastInDim S1024x4096 ![] bcast_S_S1024x4096 main_cst_14
  let main_v41 : IVec S1024x4096 1 := cmpf .olt main_v39 main_v40
  let main_c_15 : IVec S_ 1 := constantI S_ 1 1#1
  let main_v42 : IVec S_ 1 := (fun x v => Host.reduce IntOp.andi x v reducesTo_S1024x4096_S_d0_1 h_S_) main_v41 main_c_15
  let main_v43 : IVec S_ 1 := andi main_v38 main_v42
  let main_v44 : FVec F S4096x1024 .f32 := Host.absf main_arg9
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_v48 main_v49 main_v50

def fn_part1 {F : FTy → Type} [FloatOps F] (main_arg4 : FVec F S2048x1024 .f32) (main_arg5 : FVec F S2048x4096 .f32) (main_arg6 : FVec F S2048x1024 .f32) (main_arg7 : FVec F S4096x4096 .f32) (main_arg8 : FVec F S1024x4096 .f32) (main_arg9 : FVec F S4096x1024 .f32) (main_arg10 : FVec F S1024x1024 .f32) (main_arg11 : FVec F S4096x1024 .f32) (main_arg12 : FVec F S1024x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x1024 .f32) (main_arg1 : FVec F S2048x4096 .f32) (main_arg2 : FVec F S2048x4096 .f32) (main_arg3 : FVec F S2048x1024 .f32) (main_arg4 : FVec F S2048x1024 .f32) (main_arg5 : FVec F S2048x4096 .f32) (main_arg6 : FVec F S2048x1024 .f32) (main_arg7 : FVec F S4096x4096 .f32) (main_arg8 : FVec F S1024x4096 .f32) (main_arg9 : FVec F S4096x1024 .f32) (main_arg10 : FVec F S1024x1024 .f32) (main_arg11 : FVec F S4096x1024 .f32) (main_arg12 : FVec F S1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_arg11 main_arg12 main_v13 main_v16
-- ==== Kernel.lean ====
abbrev S2048x1024 : Shape := ⟨2, ![2048, 1024]⟩
abbrev S2048x4096 : Shape := ⟨2, ![2048, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩
abbrev S128x1024 : Shape := ⟨2, ![128, 1024]⟩
abbrev S128x4096 : Shape := ⟨2, ![128, 4096]⟩
abbrev S256x1024 : Shape := ⟨2, ![256, 1024]⟩
abbrev S256x4096 : Shape := ⟨2, ![256, 4096]⟩

abbrev nBuf : Space → Nat
  | .hbm => 42
  | .vmem => 41
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x4096, .f32⟩
  | .hbm, ⟨3, _⟩ => ⟨S2048x1024, .f32⟩
  | .hbm, ⟨4, _⟩ => ⟨S2048x1024, .f32⟩
  | .hbm, ⟨5, _⟩ => ⟨S2048x4096, .f32⟩
  | .hbm, ⟨6, _⟩ => ⟨S2048x1024, .f32⟩
  | .hbm, ⟨7, _⟩ => ⟨S4096x4096, .f32⟩
  | .hbm, ⟨8, _⟩ => ⟨S1024x4096, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1024x1024, .f32⟩
  | .hbm, ⟨13, _⟩ => ⟨S2048x1024, .bf16⟩
  | .hbm, ⟨14, _⟩ => ⟨S2048x4096, .bf16⟩
  | .hbm, ⟨15, _⟩ => ⟨S2048x1024, .bf16⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .bf16⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S_, .f32⟩
  | .hbm, ⟨26, _⟩ => ⟨S1024x4096, .f32⟩
  | .hbm, ⟨27, _⟩ => ⟨S1024x4096, .f32⟩
  | .hbm, ⟨28, _⟩ => ⟨S1024x4096, .bf16⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .bf16⟩
  | .hbm, ⟨34, _⟩ => ⟨S4096x1024, .bf16⟩
  | .hbm, ⟨35, _⟩ => ⟨S1024x1024, .bf16⟩
  | .hbm, ⟨36, _⟩ => ⟨S2048x4096, .f32⟩
  | .hbm, ⟨37, _⟩ => ⟨S2048x4096, .f32⟩
  | .hbm, ⟨38, _⟩ => ⟨S2048x4096, .f32⟩
  | .hbm, ⟨39, _⟩ => ⟨S2048x1024, .f32⟩
  | .hbm, ⟨40, _⟩ => ⟨S2048x1024, .f32⟩
  | .hbm, ⟨41, _⟩ => ⟨S2048x1024, .f32⟩
  | .local _ .vmem, ⟨0, _⟩ => ⟨S128x1024, .bf16⟩
  | .local _ .vmem, ⟨1, _⟩ => ⟨S128x1024, .bf16⟩
  | .local _ .vmem, ⟨2, _⟩ => ⟨S128x4096, .bf16⟩
  | .local _ .vmem, ⟨3, _⟩ => ⟨S128x4096, .bf16⟩
  | .local _ .vmem, ⟨4, _⟩ => ⟨S128x1024, .bf16⟩
  | .local _ .vmem, ⟨5, _⟩ => ⟨S128x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x4096, .bf16⟩
  | .local _ .vmem, ⟨9, _⟩ => ⟨S1024x4096, .bf16⟩
  | .local _ .vmem, ⟨10, _⟩ => ⟨S1024x1024, .bf16⟩
  | .local _ .vmem, ⟨11, _⟩ => ⟨S1024x1024, .bf16⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S256x1024, .bf16⟩
  | .local _ .vmem, ⟨23, _⟩ => ⟨S256x1024, .bf16⟩
  | .local _ .vmem, ⟨24, _⟩ => ⟨S256x4096, .bf16⟩
  | .local _ .vmem, ⟨25, _⟩ => ⟨S256x4096, .bf16⟩
  | .local _ .vmem, ⟨26, _⟩ => ⟨S256x1024, .bf16⟩
  | .local _ .vmem, ⟨27, _⟩ => ⟨S256x1024, .bf16⟩
  | .local _ .vmem, ⟨28, _⟩ => ⟨S1024x1024, .bf16⟩
  | .local _ .vmem, ⟨29, _⟩ => ⟨S1024x4096, .bf16⟩
  | .local _ .vmem, ⟨30, _⟩ => ⟨S1024x1024, .bf16⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev main_v19_2 : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem4_0 : DmaSem sig := 29
abbrev cc1_sem5_0 : DmaSem sig := 30
abbrev cc1_sem6_0 : DmaSem sig := 31
abbrev cc1_sem6_1 : DmaSem sig := 32
abbrev cc1_sem7_0 : DmaSem sig := 33
abbrev cc1_sem7_1 : DmaSem sig := 34
abbrev cc1_sem8_0 : DmaSem sig := 35
abbrev cc1_sem8_1 : DmaSem sig := 36
abbrev cc1_sem9_0 : DmaSem sig := 37
abbrev cc1_sem9_1 : DmaSem sig := 38
abbrev cc1_sem10_0 : DmaSem sig := 39
abbrev cc1_sem10_1 : DmaSem sig := 40

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bitsLt_bf16_f32 : FTy.bits .bf16 < FTy.bits .f32
  bcast_S_S4096x4096 : S_.BroadcastsInDim S4096x4096 (![] : Fin 0 → Fin S4096x4096.rank)
  bcast_S_S4096x1024 : S_.BroadcastsInDim S4096x1024 (![] : Fin 0 → Fin S4096x1024.rank)
  bcast_S_S1024x4096 : S_.BroadcastsInDim S1024x4096 (![] : Fin 0 → Fin S1024x4096.rank)
  bcast_S_S1024x1024 : S_.BroadcastsInDim S1024x1024 (![] : Fin 0 → Fin S1024x1024.rank)
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  natLt_1_32 : 1 < 32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  dot_S128x1024_S1024x1024_S128x1024_1_1_0_0_n_n_wf : DotDims.WF S128x1024 S1024x1024 S128x1024 [1] [1] [0] [0] [] []
  dot_S128x4096_S1024x4096_S128x1024_1_1_0_0_n_n_wf : DotDims.WF S128x4096 S1024x4096 S128x1024 [1] [1] [0] [0] [] []
  dot_S256x1024_S1024x1024_S256x1024_1_1_0_0_n_n_wf : DotDims.WF S256x1024 S1024x1024 S256x1024 [1] [1] [0] [0] [] []
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S2048x1024.size a
  hwx0_0 : ∀ i : grid0.Coords, EltTy.bits .bf16 = 32 ∨ (Rect.block (s := S2048x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S2048x4096.size a
  hwx0_1 : ∀ i : grid0.Coords, EltTy.bits .bf16 = 32 ∨ (Rect.block (s := S2048x4096) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S2048x1024.size a
  hwx0_2 : ∀ i : grid0.Coords, EltTy.bits .bf16 = 32 ∨ (Rect.block (s := S2048x1024) S128x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S4096x4096.size a
  hwx0_4 : ∀ i : grid0.Coords, EltTy.bits .bf16 = 32 ∨ (Rect.block (s := S4096x4096) S1024x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x1024.size a
  hwx0_5 : ∀ i : grid0.Coords, EltTy.bits .bf16 = 32 ∨ (Rect.block (s := S4096x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S2048x4096.size a
  hwx0_6 : ∀ i : grid0.Coords, EltTy.bits .f32 = 32 ∨ (Rect.block (s := S2048x4096) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S2048x4096.size a
  hwx0_7 : ∀ i : grid0.Coords, EltTy.bits .f32 = 32 ∨ (Rect.block (s := S2048x4096) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S2048x4096.size a
  hwx0_8 : ∀ i : grid0.Coords, EltTy.bits .f32 = 32 ∨ (Rect.block (s := S2048x4096) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S2048x4096.size a
  hwx0_9 : ∀ i : grid0.Coords, EltTy.bits .f32 = 32 ∨ (Rect.block (s := S2048x4096) S128x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S2048x4096.size a
  hwx0_10 : ∀ i : grid0.Coords, EltTy.bits .f32 = 32 ∨ (Rect.block (s := S2048x4096) S128x1024.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S2048x1024.size a
  hwx1_0 : ∀ i : grid1.Coords, EltTy.bits .bf16 = 32 ∨ (Rect.block (s := S2048x1024) S256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S2048x4096.size a
  hwx1_1 : ∀ i : grid1.Coords, EltTy.bits .bf16 = 32 ∨ (Rect.block (s := S2048x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S2048x1024.size a
  hwx1_2 : ∀ i : grid1.Coords, EltTy.bits .bf16 = 32 ∨ (Rect.block (s := S2048x1024) S256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S1024x4096.size a
  hwx1_4 : ∀ i : grid1.Coords, EltTy.bits .bf16 = 32 ∨ (Rect.block (s := S1024x4096) S1024x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S2048x1024.size a
  hwx1_6 : ∀ i : grid1.Coords, EltTy.bits .f32 = 32 ∨ (Rect.block (s := S2048x1024) S256x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x1024.size a ≤ S2048x1024.size a
  hwx1_7 : ∀ i : grid1.Coords, EltTy.bits .f32 = 32 ∨ (Rect.block (s := S2048x1024) S256x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x1024.size a ≤ S2048x1024.size a
  hwx1_8 : ∀ i : grid1.Coords, EltTy.bits .f32 = 32 ∨ (Rect.block (s := S2048x1024) S256x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x1024.size a ≤ S2048x1024.size a
  hwx1_9 : ∀ i : grid1.Coords, EltTy.bits .f32 = 32 ∨ (Rect.block (s := S2048x1024) S256x1024.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S256x1024.size a ≤ S2048x1024.size a
  hwx1_10 : ∀ i : grid1.Coords, EltTy.bits .f32 = 32 ∨ (Rect.block (s := S2048x1024) S256x1024.size (cc1_transform_10 i) (hinb1_10 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S128x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S128x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v19_0) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v19_1) S128x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v19_2) S128x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1024x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S256x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg4) S256x1024.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v20_0) S256x1024.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v20_1) S256x1024.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v20_2) S256x1024.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S2048x1024 : Shape := ⟨2, ![2048, 1024]⟩
abbrev S2048x4096 : Shape := ⟨2, ![2048, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩

abbrev nBuf : Space → Nat
  | .hbm => 95
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x4096, .f32⟩
  | .hbm, ⟨3, _⟩ => ⟨S2048x1024, .f32⟩
  | .hbm, ⟨4, _⟩ => ⟨S2048x1024, .f32⟩
  | .hbm, ⟨5, _⟩ => ⟨S2048x4096, .f32⟩
  | .hbm, ⟨6, _⟩ => ⟨S2048x1024, .f32⟩
  | .hbm, ⟨7, _⟩ => ⟨S4096x4096, .f32⟩
  | .hbm, ⟨8, _⟩ => ⟨S1024x4096, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1024x1024, .f32⟩
  | .hbm, ⟨13, _⟩ => ⟨S1024x4096, .f32⟩
  | .hbm, ⟨14, _⟩ => ⟨S2048x4096, .f32⟩
  | .hbm, ⟨15, _⟩ => ⟨S1024x1024, .f32⟩
  | .hbm, ⟨16, _⟩ => ⟨S2048x1024, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S2048x4096, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S1024x4096, .f32⟩
  | .hbm, ⟨26, _⟩ => ⟨S2048x4096, .f32⟩
  | .hbm, ⟨27, _⟩ => ⟨S2048x4096, .f32⟩
  | .hbm, ⟨28, _⟩ => ⟨S_, .f32⟩
  | .hbm, ⟨29, _⟩ => ⟨S1024x4096, .f32⟩
  | .hbm, ⟨30, _⟩ => ⟨S1024x4096, .f32⟩
  | .hbm, ⟨31, _⟩ => ⟨S4096x1024, .f32⟩
  | .hbm, ⟨32, _⟩ => ⟨S2048x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S2048x1024, .f32⟩
  | .hbm, ⟨38, _⟩ => ⟨S2048x1024, .f32⟩
  | .hbm, ⟨39, _⟩ => ⟨S2048x4096, .f32⟩
  | .hbm, ⟨40, _⟩ => ⟨S2048x1024, .f32⟩
  | .hbm, ⟨41, _⟩ => ⟨S_, .f32⟩
  | .hbm, ⟨42, _⟩ => ⟨S2048x4096, .f32⟩
  | .hbm, ⟨43, _⟩ => ⟨S2048x4096, .f32⟩
  | .hbm, ⟨44, _⟩ => ⟨S2048x4096, .f32⟩
  | .hbm, ⟨45, _⟩ => ⟨S_, .f32⟩
  | .hbm, ⟨46, _⟩ => ⟨S2048x4096, .f32⟩
  | .hbm, ⟨47, _⟩ => ⟨S2048x4096, .f32⟩
  | .hbm, ⟨48, _⟩ => ⟨S2048x4096, .f32⟩
  | .hbm, ⟨49, _⟩ => ⟨S_, .f32⟩
  | .hbm, ⟨50, _⟩ => ⟨S2048x4096, .f32⟩
  | .hbm, ⟨51, _⟩ => ⟨S2048x4096, .f32⟩
  | .hbm, ⟨52, _⟩ => ⟨S_, .f32⟩
  | .hbm, ⟨53, _⟩ => ⟨S2048x4096, .f32⟩
  | .hbm, ⟨54, _⟩ => ⟨S2048x4096, .f32⟩
  | .hbm, ⟨55, _⟩ => ⟨S_, .f32⟩
  | .hbm, ⟨56, _⟩ => ⟨S2048x4096, .f32⟩
  | .hbm, ⟨57, _⟩ => ⟨S2048x4096, .i1⟩
  | .hbm, ⟨58, _⟩ => ⟨S2048x4096, .f32⟩
  | .hbm, ⟨59, _⟩ => ⟨S_, .f32⟩
  | .hbm, ⟨60, _⟩ => ⟨S2048x4096, .f32⟩
  | .hbm, ⟨61, _⟩ => ⟨S2048x4096, .f32⟩
  | .hbm, ⟨62, _⟩ => ⟨S2048x4096, .f32⟩
  | .hbm, ⟨63, _⟩ => ⟨S_, .f32⟩
  | .hbm, ⟨64, _⟩ => ⟨S2048x4096, .f32⟩
  | .hbm, ⟨65, _⟩ => ⟨S2048x4096, .f32⟩
  | .hbm, ⟨66, _⟩ => ⟨S2048x4096, .f32⟩
  | .hbm, ⟨67, _⟩ => ⟨S2048x4096, .f32⟩
  | .hbm, ⟨68, _⟩ => ⟨S_, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048x1024, .f32⟩
  | .hbm, ⟨84, _⟩ => ⟨S2048x1024, .i1⟩
  | .hbm, ⟨85, _⟩ => ⟨S2048x1024, .f32⟩
  | .hbm, ⟨86, _⟩ => ⟨S_, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S_, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_cst : Ref sig .tc := ⟨.hbm, 22, rfl⟩
abbrev main_call1_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call2_cst : Ref sig .tc := ⟨.hbm, 28, rfl⟩
abbrev main_call2_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call3_cst : Ref sig .tc := ⟨.hbm, 33, rfl⟩
abbrev main_call3_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_1 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]

class Facts₀ : Prop where
  transposes_S4096x1024_S1024x4096_1_0 : S4096x1024.Transposes [1, 0] S1024x4096
  transposes_S1024x1024_S1024x1024_1_0 : S1024x1024.Transposes [1, 0] S1024x1024
  bcast_S_S4096x4096 : S_.BroadcastsInDim S4096x4096 (![] : Fin 0 → Fin S4096x4096.rank)
  transposes_S4096x4096_S4096x4096_1_0 : S4096x4096.Transposes [1, 0] S4096x4096
  bcast_S_S4096x1024 : S_.BroadcastsInDim S4096x1024 (![] : Fin 0 → Fin S4096x1024.rank)
  bcast_S_S1024x4096 : S_.BroadcastsInDim S1024x4096 (![] : Fin 0 → Fin S1024x4096.rank)
  transposes_S1024x4096_S4096x1024_1_0 : S1024x4096.Transposes [1, 0] S4096x1024
  bcast_S_S1024x1024 : S_.BroadcastsInDim S1024x1024 (![] : Fin 0 → Fin S1024x1024.rank)
  bcast_S_S2048x4096 : S_.BroadcastsInDim S2048x4096 (![] : Fin 0 → Fin S2048x4096.rank)
  bcast_S_S2048x1024 : S_.BroadcastsInDim S2048x1024 (![] : Fin 0 → Fin S2048x1024.rank)
  dot_S2048x1024_S1024x4096_S2048x4096_1_0_0_1_n_n_wf : DotDims.WF S2048x1024 S1024x4096 S2048x4096 [1] [0] [0] [1] [] []
  dot_S2048x1024_S1024x1024_S2048x1024_1_0_0_1_n_n_wf : DotDims.WF S2048x1024 S1024x1024 S2048x1024 [1] [0] [0] [1] [] []
  dot_S2048x4096_S4096x4096_S2048x4096_1_0_0_1_n_n_wf : DotDims.WF S2048x4096 S4096x4096 S2048x4096 [1] [0] [0] [1] [] []
  dot_S2048x4096_S4096x1024_S2048x1024_1_0_0_1_n_n_wf : DotDims.WF S2048x4096 S4096x1024 S2048x1024 [1] [0] [0] [1] [] []

variable [Facts₀]

def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf
def dot_S2048x4096_S4096x1024_S2048x1024_1_0_0_1_n_n : DotDims S2048x4096 S4096x1024 S2048x1024 where
  lhsContracting := [1]
  rhsContracting := [0]
  lhsNonContracting := [0]
  rhsNonContracting := [1]
  lhsBatch := []
  rhsBatch := []
  wf := dot_S2048x4096_S4096x1024_S2048x1024_1_0_0_1_n_n_wf

class Facts : Prop extends Facts₀ where

variable [Facts]
-- ==== Proof.RegionsRun.lean ====
/-
  The two-region program, run to its end.

  The program is a stretch of host operations followed by two pipelined regions.  Its buffer contents at the three
  boundaries are a fold: the launch memory, then the host operations' results, then each region's arrays at what its
  write-backs leave.  This file states the run with EVERY unscoped buffer named at the last boundary's contents, so that
  the six result arrays (three per region) and the thirteen arguments can each be read off the fold.
-/
import proofs.«153620_j18176301596897_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and in the final memory every unscoped buffer of every core holds the
    contents of the last boundary of the fold (after the second region's write-backs). -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Whole

end
-- ==== Proof.LibIsReal.lean ====
/-
  Extended reals that are reals.

  The exact instance computes on the extended reals; under a precondition that every input is finite, every
  intermediate value of a program made of sums, products, differences, maxima and divisions by non-zero reals is a real.
  This file has the closure facts, and the two laws that need them: a quotient by the square root of a positive real is
  the product with its reciprocal square root, and the exact instance's division of reals is the real division.
-/
import Idealize.ShloMosaic.PureOps.Ideal

noncomputable section

namespace Cert.LibIsReal

open Idealize.ShloMosaic

/-- `x` is (the image of) a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (max x y) := by
  rcases max_choice x y with h | h <;> rw [h] <;> assumption

theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact division of reals with a non-zero divisor is the real division. -/
theorem div_coe_coe (a : ℝ) {b : ℝ} (hb : b ≠ 0) : Ideal.div (a : EReal) (b : EReal) = ((a / b : ℝ) : EReal) := by
  rw [Ideal.div_coe hb, ← EReal.coe_mul]; congr 1; field_simp

theorem IsReal.div_coe {x : EReal} (hx : IsReal x) {b : ℝ} (hb : b ≠ 0) : IsReal (Ideal.div x (b : EReal)) := by
  obtain ⟨a, rfl⟩ := hx; exact ⟨a / b, div_coe_coe a hb⟩

/-- A quotient by the square root of a positive real is the product with the reciprocal square root. -/
theorem div_sqrt_eq_mul_rsqrt (a : EReal) {v : ℝ} (hv : 0 < v) :
    Ideal.div a (Ideal.sqrt (v : EReal)) = a * Ideal.rsqrt (v : EReal) := by
  have hs : 0 < Real.sqrt v := Real.sqrt_pos.mpr hv
  have e1 : Ideal.sqrt (v : EReal) = ((Real.sqrt v : ℝ) : EReal) := by
    show (if v < 0 then (⊥ : EReal) else (Real.sqrt v : EReal)) = _
    rw [if_neg (not_lt.mpr hv.le)]
  have e2 : Ideal.rsqrt (v : EReal) = (((Real.sqrt v)⁻¹ : ℝ) : EReal) := by
    show (if v < 0 then (⊥ : EReal) else if v = 0 then ⊤ else (((Real.sqrt v)⁻¹ : ℝ) : EReal)) = _
    rw [if_neg (not_lt.mpr hv.le), if_neg hv.ne']
  rw [e1, e2, Ideal.div_coe hs.ne', one_div]

end Cert.LibIsReal

end
-- ==== Proof.LifLaw.lean ====
/-
  One step of a leaky integrate-and-fire layer, on the extended reals.

  A neuron with membrane potential `v` and synaptic current `i` first leaks, `v' = v + κ·((0 − v) + i)`, fires when
  `v' − 1 > 0`, is reset where it fired, `(1 − z)·v' + z·0`, and its current decays and takes the new drive,
  `i·0.8 + d`.  The drive of neuron `j` for sample `r` is an inner product with the input weights plus the excitatory
  recurrent term minus the inhibitory one, both through rectified weights `max w 0`.

  Two spellings of the drive are compared.  One subtracts the inhibitory inner product; the other adds an inner product
  with the NEGATED rectified weights, after the other two terms.  They agree when the inhibitory row's entries are reals:
  a sum of reals can be negated term by term, which fails on the extended reals once `+∞` and `−∞` both occur.
  The regrouping `(a + p) + (−n) = a + (p − n)` needs no finiteness: addition is associative everywhere.

  The float literals stay as their words; the same word stands on both sides and is never evaluated.
-/
import Idealize.ShloMosaic.PureOps.Ideal
import Idealize.ShloMosaic.PureOps.Ideal.Laws
import Idealize.ShloMosaic.Lib.ValueIdx
import proofs.«153620_j18176301596897_2_alg».proof.Proof.LibIsReal

noncomputable section

open scoped BigOperators

namespace Cert.Lif

open Idealize.ShloMosaic Idealize.ShloMosaic.ValueIdx Cert.LibIsReal

/-! ## The pointwise step -/

/-- The potential after the leak: `v + κ·((0 − v) + i)`, `κ` the word of the membrane's rate. -/
def leaked (κ : BitVec 32) (v i : EReal) : EReal :=
  v + Ideal.ofBits .f32 κ * ((Ideal.ofBits .f32 0x00000000#32 - v) + i)

/-- The spike: `1` when the leaked potential less the threshold `1` is above `0`, else `0`. -/
def spike (κ : BitVec 32) (v i : EReal) : EReal :=
  (((Ideal.cmp .ogt (leaked κ v i - Ideal.ofBits .f32 0x3F800000#32) (Ideal.ofBits .f32 0x00000000#32)).toNat : ℝ) : EReal)

/-- The potential after the reset: `(1 − z)·v' + z·0`. -/
def held (κ : BitVec 32) (v i : EReal) : EReal :=
  (Ideal.ofBits .f32 0x3F800000#32 - spike κ v i) * leaked κ v i + spike κ v i * Ideal.ofBits .f32 0x00000000#32

/-- The current after the step: `i·0.8 + d`. -/
def current (i d : EReal) : EReal := i * Ideal.ofBits .f32 0x3F4CCCCD#32 + d

/-! ## A one-bit word read as a number -/

/-- A one-bit word widened to 32 bits and read signed is the bit read unsigned. -/
theorem toInt_setWidth_bit (b : BitVec 1) : (b.setWidth 32).toInt = (b.toNat : Int) := by
  rcases BitVec.eq_zero_or_eq_one b with rfl | rfl <;> decide

/-- So converting the widened word as a signed integer and converting the bit as an unsigned one give one number. -/
theorem signed_widened_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [toInt_setWidth_bit, Int.cast_natCast]

/-! ## Inner products of rows -/

/-- The inner product of row `r` of `A` with row `j` of `B`. -/
def rowDot {a b k : Nat} (A : (⟨2, ![a, k]⟩ : Shape).Idx → EReal) (B : (⟨2, ![b, k]⟩ : Shape).Idx → EReal) (r : Fin a) (j : Fin b) : EReal :=
  ∑ l : Fin k, A (ix2 r l) * B (ix2 j l)

/-- Rectified weights: `max w 0`. -/
def rect {s : Shape} (W : s.Idx → EReal) : s.Idx → EReal := fun i => max (W i) (Ideal.ofBits .f32 0x00000000#32)

/-- The drive: input term plus (excitatory term minus inhibitory term). -/
def drive {B N D E I : Nat} (x : (⟨2, ![B, D]⟩ : Shape).Idx → EReal) (se : (⟨2, ![B, E]⟩ : Shape).Idx → EReal) (si : (⟨2, ![B, I]⟩ : Shape).Idx → EReal)
    (Win : (⟨2, ![N, D]⟩ : Shape).Idx → EReal) (Wp : (⟨2, ![N, E]⟩ : Shape).Idx → EReal) (Wn : (⟨2, ![N, I]⟩ : Shape).Idx → EReal) (r : Fin B) (j : Fin N) : EReal :=
  rowDot x Win r j + (rowDot se (rect Wp) r j - rowDot si (rect Wn) r j)

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An inner product of reals against negated reals is the negated inner product. -/
theorem sum_mul_neg {ι : Type} [Fintype ι] (s w : ι → EReal) (hs : ∀ l, IsReal (s l)) (hw : ∀ l, IsReal (w l)) :
    ∑ l, s l * -(w l) = -(∑ l, s l * w l) := by
  choose s' hs' using hs
  choose w' hw' using hw
  have e1 : ∀ l, s l * -(w l) = ((-(s' l * w' l) : ℝ) : EReal) := fun l => by
    rw [hs' l, hw' l, ← EReal.coe_neg, ← EReal.coe_mul, mul_neg]
  have e2 : ∀ l, s l * w l = ((s' l * w' l : ℝ) : EReal) := fun l => by rw [hs' l, hw' l, ← EReal.coe_mul]
  simp only [e1, e2]
  rw [← coe_sum, ← coe_sum, ← EReal.coe_neg, Finset.sum_neg_distrib]

/-- A rectified real is a real. -/
theorem isReal_rect {s : Shape} (W : s.Idx → EReal) (i : s.Idx) (h : IsReal (W i)) : IsReal (rect W i) := by
  unfold rect
  rw [Ideal.ofBits_zero_f32]
  exact h.max isReal_zero

/-- THE LAW: adding the inner product with the negated rectified inhibitory weights after the other two terms is the
    drive, when row `r` of the inhibitory spikes and row `j` of the inhibitory weights hold reals. -/
theorem drive_of_negated {B N D E I : Nat} (x : (⟨2, ![B, D]⟩ : Shape).Idx → EReal) (se : (⟨2, ![B, E]⟩ : Shape).Idx → EReal) (si : (⟨2, ![B, I]⟩ : Shape).Idx → EReal)
    (Win : (⟨2, ![N, D]⟩ : Shape).Idx → EReal) (Wp : (⟨2, ![N, E]⟩ : Shape).Idx → EReal) (Wn : (⟨2, ![N, I]⟩ : Shape).Idx → EReal) (r : Fin B) (j : Fin N)
    (hsi : ∀ i, IsReal (si i)) (hWn : ∀ i, IsReal (Wn i)) :
    (rowDot x Win r j + rowDot se (rect Wp) r j) + rowDot si (fun i => -(rect Wn i)) r j = drive x se si Win Wp Wn r j := by
  have e : rowDot si (fun i => -(rect Wn i)) r j = -(rowDot si (rect Wn) r j) := by
    unfold rowDot
    exact sum_mul_neg (fun l => si (ix2 r l)) (fun l => rect Wn (ix2 j l)) (fun l => hsi _) (fun l => isReal_rect Wn _ (hWn _))
  unfold drive
  rw [e, sub_eq_add_neg, add_assoc]

end Cert.Lif

end
-- ==== Proof.Entry.lean ====
/-
  What each region finds in its arrays, and where the results end.

  Before the first region the host casts the inputs, the two spike arrays and the two input-weight matrices to a
  narrower format (the identity on extended reals), rectifies the two excitatory weight matrices (`max w 0`) and
  rectifies and negates the two inhibitory ones (`−max w 0`).  The second region finds the casts as the first left
  them (it only read them) and the other operands as the host wrote them.  Each result array ends holding what its own
  region's write-backs leave: the other region never touches it.
-/
import proofs.«153620_j18176301596897_2_alg».proof.Proof.Gen.KernelIdeal.Frame
import proofs.«153620_j18176301596897_2_alg».proof.Proof.LifLaw
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo Cert.Lif

variable (m : (ℓ : Loc nD τ sig) → Buf (Elt Ideal) ℓ) (ρ : Dev nD → PrngReg)

/-! ## The first region's operands -/

theorem first_x (c : Dev nD) : (V1 m ρ c main_v0 : S2048x1024.Idx → EReal) = m ((c : Thread nD τ).loc main_arg0) := by
  show StableHlo.after hostOps0 (W0 m ρ c) (Proc.devRef .tc main_v0) = _
  after_results
  rfl
theorem first_se (c : Dev nD) : (V1 m ρ c main_v1 : S2048x4096.Idx → EReal) = m ((c : Thread nD τ).loc main_arg5) := by
  show StableHlo.after hostOps0 (W0 m ρ c) (Proc.devRef .tc main_v1) = _
  after_results
  rfl
theorem first_si (c : Dev nD) : (V1 m ρ c main_v2 : S2048x1024.Idx → EReal) = m ((c : Thread nD τ).loc main_arg6) := by
  show StableHlo.after hostOps0 (W0 m ρ c) (Proc.devRef .tc main_v2) = _
  after_results
  rfl
theorem first_Win (c : Dev nD) : (V1 m ρ c main_v17 : S4096x1024.Idx → EReal) = m ((c : Thread nD τ).loc main_arg11) := by
  show StableHlo.after hostOps0 (W0 m ρ c) (Proc.devRef .tc main_v17) = _
  after_results
  rfl
theorem first_Wp (c : Dev nD) : (V1 m ρ c main_v5 : S4096x4096.Idx → EReal) = rect (m ((c : Thread nD τ).loc main_arg7)) := by
  show StableHlo.after hostOps0 (W0 m ρ c) (Proc.devRef .tc main_v5) = _
  after_results
  rfl
theorem first_Wn (c : Dev nD) : (V1 m ρ c main_v9 : S4096x1024.Idx → EReal) = fun i => -(rect (m ((c : Thread nD τ).loc main_arg9)) i) := by
  show StableHlo.after hostOps0 (W0 m ρ c) (Proc.devRef .tc main_v9) = _
  after_results
  rfl
theorem first_v (c : Dev nD) : (V1 m ρ c main_arg1 : S2048x4096.Idx → EReal) = m ((c : Thread nD τ).loc main_arg1) := by
  show StableHlo.after hostOps0 (W0 m ρ c) (Proc.devRef .tc main_arg1) = _
  after_results
theorem first_i (c : Dev nD) : (V1 m ρ c main_arg2 : S2048x4096.Idx → EReal) = m ((c : Thread nD τ).loc main_arg2) := by
  show StableHlo.after hostOps0 (W0 m ρ c) (Proc.devRef .tc main_arg2) = _
  after_results

/-! ## The second region's operands -/

theorem second_x (c : Dev nD) : (V2 m ρ c main_v0 : S2048x1024.Idx → EReal) = m ((c : Thread nD τ).loc main_arg0) :=
  ((W2_arr m ρ c 0).trans (((dat0 (V1 m ρ) c).arrAt_in 0 rfl _).trans (A_eq0 (V1 m ρ) c 0))).trans (first_x m ρ c)
theorem second_se (c : Dev nD) : (V2 m ρ c main_v1 : S2048x4096.Idx → EReal) = m ((c : Thread nD τ).loc main_arg5) :=
  ((W2_arr m ρ c 1).trans (((dat0 (V1 m ρ) c).arrAt_in 1 rfl _).trans (A_eq0 (V1 m ρ) c 1))).trans (first_se m ρ c)
theorem second_si (c : Dev nD) : (V2 m ρ c main_v2 : S2048x1024.Idx → EReal) = m ((c : Thread nD τ).loc main_arg6) :=
  ((W2_arr m ρ c 2).trans (((dat0 (V1 m ρ) c).arrAt_in 2 rfl _).trans (A_eq0 (V1 m ρ) c 2))).trans (first_si m ρ c)
theorem second_Win (c : Dev nD) : (V2 m ρ c main_v18 : S1024x1024.Idx → EReal) = m ((c : Thread nD τ).loc main_arg12) := by
  refine (W2_of_ne m ρ c main_v18 (by decide)).trans ?_
  show StableHlo.after hostOps0 (W0 m ρ c) (Proc.devRef .tc main_v18) = _
  after_results
  rfl
theorem second_Wp (c : Dev nD) : (V2 m ρ c main_v12 : S1024x4096.Idx → EReal) = rect (m ((c : Thread nD τ).loc main_arg8)) := by
  refine (W2_of_ne m ρ c main_v12 (by decide)).trans ?_
  show StableHlo.after hostOps0 (W0 m ρ c) (Proc.devRef .tc main_v12) = _
  after_results
  rfl
theorem second_Wn (c : Dev nD) : (V2 m ρ c main_v16 : S1024x1024.Idx → EReal) = fun i => -(rect (m ((c : Thread nD τ).loc main_arg10)) i) := by
  refine (W2_of_ne m ρ c main_v16 (by decide)).trans ?_
  show StableHlo.after hostOps0 (W0 m ρ c) (Proc.devRef .tc main_v16) = _
  after_results
  rfl
theorem second_v (c : Dev nD) : (V2 m ρ c main_arg3 : S2048x1024.Idx → EReal) = m ((c : Thread nD τ).loc main_arg3) := by
  refine (W2_of_ne m ρ c main_arg3 (by decide)).trans ?_
  show StableHlo.after hostOps0 (W0 m ρ c) (Proc.devRef .tc main_arg3) = _
  after_results
theorem second_i (c : Dev nD) : (V2 m ρ c main_arg4 : S2048x1024.Idx → EReal) = m ((c : Thread nD τ).loc main_arg4) := by
  refine (W2_of_ne m ρ c main_arg4 (by decide)).trans ?_
  show StableHlo.after hostOps0 (W0 m ρ c) (Proc.devRef .tc main_arg4) = _
  after_results

/-! ## Where the results end -/

/-- A result of the first region ends at what that region's write-backs leave in window `w`'s array. -/
theorem end_first (c : Dev nD) (w : Fin cfg0.W) (hw : ∀ w', Pipeline.arrRef spec1 w' ≠ Pipeline.arrRef spec0 w) :
    W3 m ρ c (Proc.devRef .tc (Pipeline.arrRef spec0 w)) = (dat0 (V1 m ρ) c).arrAt w cfg0.N :=
  (W3_of_ne m ρ c _ hw).trans (W2_arr m ρ c w)

/-- A result of the second region ends at what that region's write-backs leave in window `w`'s array. -/
theorem end_second (c : Dev nD) (w : Fin cfg1.W) :
    W3 m ρ c (Proc.devRef .tc (Pipeline.arrRef spec1 w)) = (dat1 (V2 m ρ) c).arrAt w cfg1.N :=
  W3_arr m ρ c w

end Cert.KernelIdeal.Entry

end
-- ==== Proof.LibRowProducts.lean ====
/-
  Products of the rows of two matrices, on the extended reals.

  General lemma, for any extents: the product of an `M × K` matrix `A` with the transpose of an `N × K` matrix `B`
  — both operands contracted along their second axis — into a zero accumulator, read at `(i, j)`, is the sum over
  `l` of `A (i, l) · B (j, l)`: the inner product of row `i` of `A` with row `j` of `B`.  Indices are built
  from their coordinates (`ix2`), so the lemma rewrites a term at a literal position.
-/
import Idealize.ShloMosaic.PureOps.Ideal.Laws
import Idealize.ShloMosaic.Lib.ValueIdx

noncomputable section

open Idealize.ShloMosaic Idealize.ShloMosaic.ValueIdx

namespace Cert.RowProducts

/-- A product of an `M × K` matrix with the transpose of an `N × K` matrix into a zero accumulator, read at
    `(i, j)`: the sum over the contracted position `l` of `A (i, l) · B (j, l)`.  The four hypotheses say which
    coordinate of each operand index is the row and which the contracted position; at a literal record each holds
    by computation. -/
theorem matmul_transposed_zero_apply {M K N : Nat} {φ₁ φ₂ : FTy} (d : DotDims ⟨2, ![M, K]⟩ ⟨2, ![N, K]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (j 1).val) (hr1 : ∀ j k, (d.rhsIdx j k 1).val = (k ⟨0, by omega⟩).val)
    (A : FVec Ideal ⟨2, ![M, K]⟩ φ₁) (B : FVec Ideal ⟨2, ![N, K]⟩ φ₂) (i : Fin M) (j : Fin N) :
    matmul d none A B (constant ⟨2, ![M, N]⟩ .f32 0x00000000#32) (ix2 i j) = ∑ l : Fin K, A (ix2 i l) * B (ix2 j l) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 j l := by
    funext a; apply Fin.ext
    match a with
    | ⟨0, _⟩ => exact hr0 _ _
    | ⟨1, _⟩ => exact (hr1 _ _).trans (contrEquiv1_symm_val d K hr hs l)
  rw [e1, e2]

end Cert.RowProducts

end
-- ==== Proof.KernelStep.lean ====
/-
  What each kernel body stores, at an index.

  Both bodies do the same step on a block of rows: three products of the block's rows of inputs and spikes with rows of
  weight blocks, added in order; the leak, the threshold test and the reset of the membrane potential; the decay of the
  current plus the products.  Each stored value is read here at one index of the block as the pointwise step of the
  loaded values at that index, and — for the current — as inner products of ROWS: entry `(p, q)` of a product of a
  block with a transposed weight block depends on row `p` of the block and row `q` of the weights.

  The spikes are stored as a one-bit test widened to 32 bits and converted as a signed integer: the bit as a number.
-/
import proofs.«153620_j18176301596897_2_alg».proof.Proof.Gen.KernelIdeal.Skeleton
import proofs.«153620_j18176301596897_2_alg».proof.Proof.LifLaw
import proofs.«153620_j18176301596897_2_alg».proof.Proof.LibRowProducts
import Idealize.ShloMosaic.Lib.Pipeline.Value

noncomputable section

namespace Cert.KernelIdeal.Step

open Cert.KernelIdeal Cert.KernelIdeal.Gen Idealize.ShloMosaic Idealize.ShloMosaic.ValueIdx Cert.Lif

/-! ## The four products' shapes -/

/-- A product of a `128 × 1024` block with the transpose of a `1024 × 1024` block of weights, from zero, at `(p, q)`: the inner
    product of row `p` of the block with row `q` of the weights. -/
theorem dE_in_apply (A : S128x1024.Idx → EReal) (B : S1024x1024.Idx → EReal) (p : Fin 128) (q : Fin 1024) :
    matmul (F := Ideal) (φ₁ := .bf16) (φ₂ := .bf16) dot_S128x1024_S1024x1024_S128x1024_1_1_0_0_n_n none A B (constant S128x1024 .f32 0x00000000#32) (ix2 p q) = rowDot A B p q :=
  Cert.RowProducts.matmul_transposed_zero_apply (M := 128) (K := 1024) (N := 1024) (φ₁ := .bf16) (φ₂ := .bf16) dot_S128x1024_S1024x1024_S128x1024_1_1_0_0_n_n rfl rfl
    (fun j k => by
      unfold DotDims.lhsIdx
      rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
      rfl)
    (fun j k => dot_S128x1024_S1024x1024_S128x1024_1_1_0_0_n_n.lhsIdx_val_of_single rfl j k)
    (fun j k => by
      unfold DotDims.rhsIdx
      rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
      rfl)
    (fun j k => dot_S128x1024_S1024x1024_S128x1024_1_1_0_0_n_n.rhsIdx_val_of_single rfl j k) A B p q

/-- A product of a `128 × 4096` block with the transpose of a `1024 × 4096` block of weights, from zero, at `(p, q)`: the inner
    product of row `p` of the block with row `q` of the weights. -/
theorem dE_rec_apply (A : S128x4096.Idx → EReal) (B : S1024x4096.Idx → EReal) (p : Fin 128) (q : Fin 1024) :
    matmul (F := Ideal) (φ₁ := .bf16) (φ₂ := .bf16) dot_S128x4096_S1024x4096_S128x1024_1_1_0_0_n_n none A B (constant S128x1024 .f32 0x00000000#32) (ix2 p q) = rowDot A B p q :=
  Cert.RowProducts.matmul_transposed_zero_apply (M := 128) (K := 4096) (N := 1024) (φ₁ := .bf16) (φ₂ := .bf16) dot_S128x4096_S1024x4096_S128x1024_1_1_0_0_n_n rfl rfl
    (fun j k => by
      unfold DotDims.lhsIdx
      rw [dif_neg (show ¬(0 : Fin S128x4096.rank) ∈ dot_S128x4096_S1024x4096_S128x1024_1_1_0_0_n_n.lhsBatch by decide), dif_pos (show (0 : Fin S128x4096.rank) ∈ dot_S128x4096_S1024x4096_S128x1024_1_1_0_0_n_n.lhsNonContracting by decide)]
      rfl)
    (fun j k => dot_S128x4096_S1024x4096_S128x1024_1_1_0_0_n_n.lhsIdx_val_of_single rfl j k)
    (fun j k => by
      unfold DotDims.rhsIdx
      rw [dif_neg (show ¬(0 : Fin S1024x4096.rank) ∈ dot_S128x4096_S1024x4096_S128x1024_1_1_0_0_n_n.rhsBatch by decide), dif_pos (show (0 : Fin S1024x4096.rank) ∈ dot_S128x4096_S1024x4096_S128x1024_1_1_0_0_n_n.rhsNonContracting by decide)]
      rfl)
    (fun j k => dot_S128x4096_S1024x4096_S128x1024_1_1_0_0_n_n.rhsIdx_val_of_single rfl j k) A B p q

/-- A product of a `256 × 1024` block with the transpose of a `1024 × 1024` block of weights, from zero, at `(p, q)`: the inner
    product of row `p` of the block with row `q` of the weights. -/
theorem dI_in_apply (A : S256x1024.Idx → EReal) (B : S1024x1024.Idx → EReal) (p : Fin 256) (q : Fin 1024) :
    matmul (F := Ideal) (φ₁ := .bf16) (φ₂ := .bf16) dot_S256x1024_S1024x1024_S256x1024_1_1_0_0_n_n none A B (constant S256x1024 .f32 0x00000000#32) (ix2 p q) = rowDot A B p q :=
  Cert.RowProducts.matmul_transposed_zero_apply (M := 256) (K := 1024) (N := 1024) (φ₁ := .bf16) (φ₂ := .bf16) dot_S256x1024_S1024x1024_S256x1024_1_1_0_0_n_n rfl rfl
    (fun j k => by
      unfold DotDims.lhsIdx
      rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
      rfl)
    (fun j k => dot_S256x1024_S1024x1024_S256x1024_1_1_0_0_n_n.lhsIdx_val_of_single rfl j k)
    (fun j k => by
      unfold DotDims.rhsIdx
      rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
      rfl)
    (fun j k => dot_S256x1024_S1024x1024_S256x1024_1_1_0_0_n_n.rhsIdx_val_of_single rfl j k) A B p q

/-- A product of a `256 × 4096` block with the transpose of a `1024 × 4096` block of weights, from zero, at `(p, q)`: the inner
    product of row `p` of the block with row `q` of the weights. -/
theorem dI_rec_apply (A : S256x4096.Idx → EReal) (B : S1024x4096.Idx → EReal) (p : Fin 256) (q : Fin 1024) :
    matmul (F := Ideal) (φ₁ := .bf16) (φ₂ := .bf16) dot_S256x4096_S1024x4096_S256x1024_1_1_0_0_n_n none A B (constant S256x1024 .f32 0x00000000#32) (ix2 p q) = rowDot A B p q :=
  Cert.RowProducts.matmul_transposed_zero_apply (M := 256) (K := 4096) (N := 1024) (φ₁ := .bf16) (φ₂ := .bf16) dot_S256x4096_S1024x4096_S256x1024_1_1_0_0_n_n rfl rfl
    (fun j k => by
      unfold DotDims.lhsIdx
      rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
      rfl)
    (fun j k => dot_S256x4096_S1024x4096_S256x1024_1_1_0_0_n_n.lhsIdx_val_of_single rfl j k)
    (fun j k => by
      unfold DotDims.rhsIdx
      rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
      rfl)
    (fun j k => dot_S256x4096_S1024x4096_S256x1024_1_1_0_0_n_n.rhsIdx_val_of_single rfl j k) A B p q

/-! ## Region 0: the three stored values at an index -/

/-- The spikes stored by the body: the threshold test of the leaked potential, as a number. -/
theorem spikes0 (v i : Vec Ideal S128x1024 .f32) (y : S128x1024.Idx) :
    k0_pay6 v i y = spike 0x3D4CCCCD#32 (v y) (i y) :=
  signed_widened_bit _

/-- The potential stored by the body: reset where the neuron fired. -/
theorem potential0 (v i : Vec Ideal S128x1024 .f32) (y : S128x1024.Idx) :
    k0_pay1 (k0_pay4 v i) (k0_pay6 v i) (Scalar.ofBits .f32 0x3F800000#32) y = held 0x3D4CCCCD#32 (v y) (i y) := by
  show (Ideal.ofBits .f32 0x3F800000#32 - k0_pay6 v i y) * leaked 0x3D4CCCCD#32 (v y) (i y) + k0_pay6 v i y * Ideal.ofBits .f32 0x00000000#32 = _
  rw [spikes0]
  rfl

/-- The three products of the body, added in its order, at `(p, q)`: input term, excitatory term, then the term of
    the third weight block. -/
theorem products0 (x0 : Vec Ideal S128x1024 .bf16) (x1 : Vec Ideal S128x4096 .bf16) (x2 : Vec Ideal S128x1024 .bf16)
    (x3 : Vec Ideal S1024x1024 .bf16) (x4 : Vec Ideal S1024x4096 .bf16) (x5 : Vec Ideal S1024x1024 .bf16) (p : Fin 128) (q : Fin 1024) :
    k0_pay3 x0 x1 x2 x3 x4 x5 (ix2 p q) = (rowDot x0 x3 p q + rowDot x1 x4 p q) + rowDot x2 x5 p q := by
  unfold k0_pay3
  simp only [shapeCast_self]
  exact congrArg₂ (· + ·) (congrArg₂ (· + ·) (dE_in_apply x0 x3 p q) (dE_rec_apply x1 x4 p q)) (dE_in_apply x2 x5 p q)

/-- The current stored by the body: the decayed current plus the three products. -/
theorem current0 (x0 : Vec Ideal S128x1024 .bf16) (x1 : Vec Ideal S128x4096 .bf16) (x2 : Vec Ideal S128x1024 .bf16)
    (x3 : Vec Ideal S1024x1024 .bf16) (x4 : Vec Ideal S1024x4096 .bf16) (x5 : Vec Ideal S1024x1024 .bf16) (i : Vec Ideal S128x1024 .f32) (p : Fin 128) (q : Fin 1024) :
    k0_pay2 (k0_pay3 x0 x1 x2 x3 x4 x5) (k0_pay5 i) (ix2 p q)
      = current (i (ix2 p q)) ((rowDot x0 x3 p q + rowDot x1 x4 p q) + rowDot x2 x5 p q) := by
  show i (ix2 p q) * Ideal.ofBits .f32 0x3F4CCCCD#32 + k0_pay3 x0 x1 x2 x3 x4 x5 (ix2 p q) = _
  rw [products0]
  rfl

/-! ## Region 1: the three stored values at an index -/

/-- The spikes stored by the body: the threshold test of the leaked potential, as a number. -/
theorem spikes1 (v i : Vec Ideal S256x1024 .f32) (y : S256x1024.Idx) :
    k1_pay6 v i y = spike 0x3DCCCCCD#32 (v y) (i y) :=
  signed_widened_bit _

/-- The potential stored by the body: reset where the neuron fired. -/
theorem potential1 (v i : Vec Ideal S256x1024 .f32) (y : S256x1024.Idx) :
    k1_pay1 (k1_pay4 v i) (k1_pay6 v i) (k1_pay7 (F := Ideal)) y = held 0x3DCCCCCD#32 (v y) (i y) := by
  show (Ideal.ofBits .f32 0x3F800000#32 - k1_pay6 v i y) * leaked 0x3DCCCCCD#32 (v y) (i y) + k1_pay6 v i y * Ideal.ofBits .f32 0x00000000#32 = _
  rw [spikes1]
  rfl

/-- The three products of the body, added in its order, at `(p, q)`: input term, excitatory term, then the term of
    the third weight block. -/
theorem products1 (x0 : Vec Ideal S256x1024 .bf16) (x1 : Vec Ideal S256x4096 .bf16) (x2 : Vec Ideal S256x1024 .bf16)
    (x3 : Vec Ideal S1024x1024 .bf16) (x4 : Vec Ideal S1024x4096 .bf16) (x5 : Vec Ideal S1024x1024 .bf16) (p : Fin 256) (q : Fin 1024) :
    k1_pay3 x0 x1 x2 x3 x4 x5 (ix2 p q) = (rowDot x0 x3 p q + rowDot x1 x4 p q) + rowDot x2 x5 p q := by
  unfold k1_pay3
  simp only [shapeCast_self]
  exact congrArg₂ (· + ·) (congrArg₂ (· + ·) (dI_in_apply x0 x3 p q) (dI_rec_apply x1 x4 p q)) (dI_in_apply x2 x5 p q)

/-- The current stored by the body: the decayed current plus the three products. -/
theorem current1 (x0 : Vec Ideal S256x1024 .bf16) (x1 : Vec Ideal S256x4096 .bf16) (x2 : Vec Ideal S256x1024 .bf16)
    (x3 : Vec Ideal S1024x1024 .bf16) (x4 : Vec Ideal S1024x4096 .bf16) (x5 : Vec Ideal S1024x1024 .bf16) (i : Vec Ideal S256x1024 .f32) (p : Fin 256) (q : Fin 1024) :
    k1_pay2 (k1_pay3 x0 x1 x2 x3 x4 x5) (k1_pay5 i) (ix2 p q)
      = current (i (ix2 p q)) ((rowDot x0 x3 p q + rowDot x1 x4 p q) + rowDot x2 x5 p q) := by
  show i (ix2 p q) * Ideal.ofBits .f32 0x3F4CCCCD#32 + k1_pay3 x0 x1 x2 x3 x4 x5 (ix2 p q) = _
  rw [products1]
  rfl

end Cert.KernelIdeal.Step

end
-- ==== Proof.LifArrays.lean ====
/-
  The layer's step as whole arrays.

  The three results of a step as functions of whole arrays, index by index: the spikes and the reset potentials are
  pointwise in the potential and the current; entry `(r, j)` of the new current is the decayed current there plus
  inner products of ROW `r` of the three activations with ROW `j` of the three weight matrices.  The new current is
  stated in the order a kernel adds its three products; under reality of the inhibitory operands it is the drive with
  the inhibitory term subtracted.
-/
import proofs.«153620_j18176301596897_2_alg».proof.Proof.LifLaw

noncomputable section

open scoped BigOperators

namespace Cert.Lif

open Idealize.ShloMosaic Idealize.ShloMosaic.ValueIdx Cert.LibIsReal

/-- The spikes of a whole array of neurons. -/
def spikesOf {s : Shape} (κ : BitVec 32) (v i : s.Idx → EReal) : s.Idx → EReal := fun y => spike κ (v y) (i y)

/-- The potentials after the reset. -/
def potentialOf {s : Shape} (κ : BitVec 32) (v i : s.Idx → EReal) : s.Idx → EReal := fun y => held κ (v y) (i y)

/-- The currents after the step, the three products added in order. -/
def currentOf {B N D E I : Nat} (i : (⟨2, ![B, N]⟩ : Shape).Idx → EReal) (x : (⟨2, ![B, D]⟩ : Shape).Idx → EReal)
    (se : (⟨2, ![B, E]⟩ : Shape).Idx → EReal) (si : (⟨2, ![B, I]⟩ : Shape).Idx → EReal) (Win : (⟨2, ![N, D]⟩ : Shape).Idx → EReal)
    (Wp : (⟨2, ![N, E]⟩ : Shape).Idx → EReal) (Wn : (⟨2, ![N, I]⟩ : Shape).Idx → EReal) : (⟨2, ![B, N]⟩ : Shape).Idx → EReal :=
  fun y => current (i y) ((rowDot x Win (y 0) (y 1) + rowDot se Wp (y 0) (y 1)) + rowDot si Wn (y 0) (y 1))

/-- Inner products of rows that agree entry by entry agree. -/
theorem rowDot_congr {a b k a' b' : Nat} (A : (⟨2, ![a, k]⟩ : Shape).Idx → EReal) (B : (⟨2, ![b, k]⟩ : Shape).Idx → EReal)
    (A' : (⟨2, ![a', k]⟩ : Shape).Idx → EReal) (B' : (⟨2, ![b', k]⟩ : Shape).Idx → EReal) (p : Fin a) (q : Fin b) (r : Fin a') (j : Fin b')
    (hA : ∀ l, A (ix2 p l) = A' (ix2 r l)) (hB : ∀ l, B (ix2 q l) = B' (ix2 j l)) : rowDot A B p q = rowDot A' B' r j := by
  unfold rowDot
  exact Finset.sum_congr rfl fun l _ => by rw [hA l, hB l]

/-- With rectified excitatory weights and rectified, negated inhibitory weights, and real inhibitory operands, the
    currents are the decayed currents plus the drive. -/
theorem currentOf_eq_drive {B N D E I : Nat} (i : (⟨2, ![B, N]⟩ : Shape).Idx → EReal) (x : (⟨2, ![B, D]⟩ : Shape).Idx → EReal)
    (se : (⟨2, ![B, E]⟩ : Shape).Idx → EReal) (si : (⟨2, ![B, I]⟩ : Shape).Idx → EReal) (Win : (⟨2, ![N, D]⟩ : Shape).Idx → EReal)
    (Wp : (⟨2, ![N, E]⟩ : Shape).Idx → EReal) (Wn : (⟨2, ![N, I]⟩ : Shape).Idx → EReal)
    (hsi : ∀ k, IsReal (si k)) (hWn : ∀ k, IsReal (Wn k)) :
    currentOf i x se si Win (rect Wp) (fun k => -(rect Wn k)) = fun y => current (i y) (drive x se si Win Wp Wn (y 0) (y 1)) := by
  funext y
  unfold currentOf
  rw [drive_of_negated x se si Win Wp Wn (y 0) (y 1) hsi hWn]

end Cert.Lif

end
-- ==== Proof.First.lean ====
/-
  The first region: the excitatory neurons' step, block by block.

  The region's grid tiles its three result arrays with blocks of 128 rows by 1024 columns.  At a point the body reads
  the 128 rows of the inputs and of the two spike arrays that its block's rows name, the 1024 rows of each weight matrix
  that its block's columns name, and the block of the potentials and currents; what it stores is the step of
  Proof/KernelStep.lean on those.  Read back through the blocks: entry `(r, j)` of each result is the step at `(r, j)` of
  the whole arrays, the inner products taken over whole rows.  The blocks cover the arrays, so each result array ends
  holding that function of the arrays the region found.
-/
import proofs.«153620_j18176301596897_2_alg».proof.Proof.Gen.KernelIdeal.Frame
import proofs.«153620_j18176301596897_2_alg».proof.Proof.KernelStep
import proofs.«153620_j18176301596897_2_alg».proof.Proof.LifArrays
import Idealize.ShloMosaic.Lib.Pipeline.Value

set_option maxRecDepth 16384

noncomputable section

namespace Cert.KernelIdeal.First

open Cert.KernelIdeal Cert.KernelIdeal.Gen Idealize.ShloMosaic Idealize.ShloMosaic.TcCoe Idealize.SL.Sem
open Idealize.ShloMosaic.ValueIdx Cert.Lif Cert.KernelIdeal.Step
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the grid -/

/-- The activations' blocks follow the result's row block and span all columns. -/
theorem idx_rows : ∀ t : Fin cfg0.N, win0_0.index t 0 = win0_8.index t 0 ∧ win0_0.index t 1 = 0
    ∧ win0_1.index t 0 = win0_8.index t 0 ∧ win0_1.index t 1 = 0
    ∧ win0_2.index t 0 = win0_8.index t 0 ∧ win0_2.index t 1 = 0 :=
  (by decide +kernel : ∀ t : Fin grid0.N, _)

/-- The weights' blocks follow the result's column block and span all columns. -/
theorem idx_weights : ∀ t : Fin cfg0.N, win0_3.index t 0 = win0_8.index t 1 ∧ win0_3.index t 1 = 0
    ∧ win0_4.index t 0 = win0_8.index t 1 ∧ win0_4.index t 1 = 0
    ∧ win0_5.index t 0 = win0_8.index t 1 ∧ win0_5.index t 1 = 0 :=
  (by decide +kernel : ∀ t : Fin grid0.N, _)

/-- The state's blocks and the three results' blocks are one block. -/
theorem idx_state : ∀ t : Fin cfg0.N, win0_6.index t 0 = win0_8.index t 0 ∧ win0_6.index t 1 = win0_8.index t 1
    ∧ win0_7.index t 0 = win0_8.index t 0 ∧ win0_7.index t 1 = win0_8.index t 1
    ∧ win0_9.index t 0 = win0_8.index t 0 ∧ win0_9.index t 1 = win0_8.index t 1
    ∧ win0_10.index t 0 = win0_8.index t 0 ∧ win0_10.index t 1 = win0_8.index t 1 :=
  (by decide +kernel : ∀ t : Fin grid0.N, _)

theorem idx_range : ∀ t : Fin cfg0.N, win0_8.index t 0 ≤ 15 ∧ win0_8.index t 1 ≤ 3 :=
  (by decide +kernel : ∀ t : Fin grid0.N, _)

/-- Every block of the result is some point's. -/
theorem idx_onto : ∀ (q0 : Fin 16) (q1 : Fin 4), ∃ t : Fin cfg0.N, win0_8.index t 0 = q0.val ∧ win0_8.index t 1 = q1.val :=
  (by decide +kernel : ∀ (q0 : Fin 16) (q1 : Fin 4), ∃ t : Fin grid0.N, win0_8.index t 0 = q0.val ∧ win0_8.index t 1 = q1.val)

/-- The array row of row `p` of point `t`'s block. -/
abbrev row (t : Fin cfg0.N) (p : Fin 128) : Fin 2048 := ⟨win0_8.index t 0 * 128 + p.val, by have := (idx_range t).1; have := p.isLt; omega⟩
/-- The array column of column `q` of point `t`'s block: also the weight row it names. -/
abbrev col (t : Fin cfg0.N) (q : Fin 1024) : Fin 4096 := ⟨win0_8.index t 1 * 1024 + q.val, by have := (idx_range t).2; have := q.isLt; omega⟩

/-! ## The blocks the body reads, as rows of the arrays -/

theorem read_x (c : Dev nD) (t : Fin cfg0.N) (p : Fin 128) (l : Fin 1024) :
    (iblk0 V c 0 t : S128x1024.Idx → EReal) (ix2 p l) = (V c main_v0 : S2048x1024.Idx → EReal) (ix2 (row t p) l) := by
  obtain ⟨e0, e1, -, -, -, -⟩ := idx_rows t
  show V c main_v0 (((cfg0.win 0).blk t).view.emb (ix2 p l : S128x1024.Idx)) = _
  refine congrArg (V c main_v0) (funext fun a => Fin.ext ?_)
  match a with
  | ⟨0, _⟩ => show win0_0.index t 0 * 128 + 1 * p.val = win0_8.index t 0 * 128 + p.val; rw [e0]; omega
  | ⟨1, _⟩ => show win0_0.index t 1 * 1024 + 1 * l.val = l.val; rw [e1]; omega

theorem read_se (c : Dev nD) (t : Fin cfg0.N) (p : Fin 128) (l : Fin 4096) :
    (iblk0 V c 1 t : S128x4096.Idx → EReal) (ix2 p l) = (V c main_v1 : S2048x4096.Idx → EReal) (ix2 (row t p) l) := by
  obtain ⟨-, -, e0, e1, -, -⟩ := idx_rows t
  show V c main_v1 (((cfg0.win 1).blk t).view.emb (ix2 p l : S128x4096.Idx)) = _
  refine congrArg (V c main_v1) (funext fun a => Fin.ext ?_)
  match a with
  | ⟨0, _⟩ => show win0_1.index t 0 * 128 + 1 * p.val = win0_8.index t 0 * 128 + p.val; rw [e0]; omega
  | ⟨1, _⟩ => show win0_1.index t 1 * 4096 + 1 * l.val = l.val; rw [e1]; omega

theorem read_si (c : Dev nD) (t : Fin cfg0.N) (p : Fin 128) (l : Fin 1024) :
    (iblk0 V c 2 t : S128x1024.Idx → EReal) (ix2 p l) = (V c main_v2 : S2048x1024.Idx → EReal) (ix2 (row t p) l) := by
  obtain ⟨-, -, -, -, e0, e1⟩ := idx_rows t
  show V c main_v2 (((cfg0.win 2).blk t).view.emb (ix2 p l : S128x1024.Idx)) = _
  refine congrArg (V c main_v2) (funext fun a => Fin.ext ?_)
  match a with
  | ⟨0, _⟩ => show win0_2.index t 0 * 128 + 1 * p.val = win0_8.index t 0 * 128 + p.val; rw [e0]; omega
  | ⟨1, _⟩ => show win0_2.index t 1 * 1024 + 1 * l.val = l.val; rw [e1]; omega

theorem read_Win (c : Dev nD) (t : Fin cfg0.N) (q : Fin 1024) (l : Fin 1024) :
    (iblk0 V c 3 t : S1024x1024.Idx → EReal) (ix2 q l) = (V c main_v17 : S4096x1024.Idx → EReal) (ix2 (col t q) l) := by
  obtain ⟨e0, e1, -, -, -, -⟩ := idx_weights t
  show V c main_v17 (((cfg0.win 3).blk t).view.emb (ix2 q l : S1024x1024.Idx)) = _
  refine congrArg (V c main_v17) (funext fun a => Fin.ext ?_)
  match a with
  | ⟨0, _⟩ => show win0_3.index t 0 * 1024 + 1 * q.val = win0_8.index t 1 * 1024 + q.val; rw [e0]; omega
  | ⟨1, _⟩ => show win0_3.index t 1 * 1024 + 1 * l.val = l.val; rw [e1]; omega

theorem read_Wp (c : Dev nD) (t : Fin cfg0.N) (q : Fin 1024) (l : Fin 4096) :
    (iblk0 V c 4 t : S1024x4096.Idx → EReal) (ix2 q l) = (V c main_v5 : S4096x4096.Idx → EReal) (ix2 (col t q) l) := by
  obtain ⟨-, -, e0, e1, -, -⟩ := idx_weights t
  show V c main_v5 (((cfg0.win 4).blk t).view.emb (ix2 q l : S1024x4096.Idx)) = _
  refine congrArg (V c main_v5) (funext fun a => Fin.ext ?_)
  match a with
  | ⟨0, _⟩ => show win0_4.index t 0 * 1024 + 1 * q.val = win0_8.index t 1 * 1024 + q.val; rw [e0]; omega
  | ⟨1, _⟩ => show win0_4.index t 1 * 4096 + 1 * l.val = l.val; rw [e1]; omega

theorem read_Wn (c : Dev nD) (t : Fin cfg0.N) (q : Fin 1024) (l : Fin 1024) :
    (iblk0 V c 5 t : S1024x1024.Idx → EReal) (ix2 q l) = (V c main_v9 : S4096x1024.Idx → EReal) (ix2 (col t q) l) := by
  obtain ⟨-, -, -, -, e0, e1⟩ := idx_weights t
  show V c main_v9 (((cfg0.win 5).blk t).view.emb (ix2 q l : S1024x1024.Idx)) = _
  refine congrArg (V c main_v9) (funext fun a => Fin.ext ?_)
  match a with
  | ⟨0, _⟩ => show win0_5.index t 0 * 1024 + 1 * q.val = win0_8.index t 1 * 1024 + q.val; rw [e0]; omega
  | ⟨1, _⟩ => show win0_5.index t 1 * 1024 + 1 * l.val = l.val; rw [e1]; omega

theorem read_v (c : Dev nD) (t : Fin cfg0.N) (p : Fin 128) (q : Fin 1024) :
    (iblk0 V c 6 t : S128x1024.Idx → EReal) (ix2 p q) = (V c main_arg1 : S2048x4096.Idx → EReal) (ix2 (row t p) (col t q)) := by
  obtain ⟨e0, e1, -, -, -, -, -, -⟩ := idx_state t
  show V c main_arg1 (((cfg0.win 6).blk t).view.emb (ix2 p q : S128x1024.Idx)) = _
  refine congrArg (V c main_arg1) (funext fun a => Fin.ext ?_)
  match a with
  | ⟨0, _⟩ => show win0_6.index t 0 * 128 + 1 * p.val = win0_8.index t 0 * 128 + p.val; rw [e0]; omega
  | ⟨1, _⟩ => show win0_6.index t 1 * 1024 + 1 * q.val = win0_8.index t 1 * 1024 + q.val; rw [e1]; omega

theorem read_i (c : Dev nD) (t : Fin cfg0.N) (p : Fin 128) (q : Fin 1024) :
    (iblk0 V c 7 t : S128x1024.Idx → EReal) (ix2 p q) = (V c main_arg2 : S2048x4096.Idx → EReal) (ix2 (row t p) (col t q)) := by
  obtain ⟨-, -, e0, e1, -, -, -, -⟩ := idx_state t
  show V c main_arg2 (((cfg0.win 7).blk t).view.emb (ix2 p q : S128x1024.Idx)) = _
  refine congrArg (V c main_arg2) (funext fun a => Fin.ext ?_)
  match a with
  | ⟨0, _⟩ => show win0_7.index t 0 * 128 + 1 * p.val = win0_8.index t 0 * 128 + p.val; rw [e0]; omega
  | ⟨1, _⟩ => show win0_7.index t 1 * 1024 + 1 * q.val = win0_8.index t 1 * 1024 + q.val; rw [e1]; omega

/-! ## Where a block's entries sit in the result arrays -/

/-- Entry `(p, q)` of result 0's block at point `t` sits at `(row t p, col t q)` of its array. -/
theorem place8 (t : Fin cfg0.N) (p : Fin 128) (q : Fin 1024) :
    ((cfg0.win 8).blk t).view.emb (ix2 p q : S128x1024.Idx) = (ix2 (row t p) (col t q) : S2048x4096.Idx) := by
  obtain ⟨-, -, -, -, e0, e1, e2, e3⟩ := idx_state t
  funext a; apply Fin.ext
  match a with
  | ⟨0, _⟩ => show win0_8.index t 0 * 128 + 1 * p.val = win0_8.index t 0 * 128 + p.val; omega
  | ⟨1, _⟩ => show win0_8.index t 1 * 1024 + 1 * q.val = win0_8.index t 1 * 1024 + q.val; omega

/-- Entry `(p, q)` of result 1's block at point `t` sits at `(row t p, col t q)` of its array. -/
theorem place9 (t : Fin cfg0.N) (p : Fin 128) (q : Fin 1024) :
    ((cfg0.win 9).blk t).view.emb (ix2 p q : S128x1024.Idx) = (ix2 (row t p) (col t q) : S2048x4096.Idx) := by
  obtain ⟨-, -, -, -, e0, e1, e2, e3⟩ := idx_state t
  funext a; apply Fin.ext
  match a with
  | ⟨0, _⟩ => show win0_9.index t 0 * 128 + 1 * p.val = win0_8.index t 0 * 128 + p.val; rw [e0]; omega
  | ⟨1, _⟩ => show win0_9.index t 1 * 1024 + 1 * q.val = win0_8.index t 1 * 1024 + q.val; rw [e1]; omega

/-- Entry `(p, q)` of result 2's block at point `t` sits at `(row t p, col t q)` of its array. -/
theorem place10 (t : Fin cfg0.N) (p : Fin 128) (q : Fin 1024) :
    ((cfg0.win 10).blk t).view.emb (ix2 p q : S128x1024.Idx) = (ix2 (row t p) (col t q) : S2048x4096.Idx) := by
  obtain ⟨-, -, -, -, e0, e1, e2, e3⟩ := idx_state t
  funext a; apply Fin.ext
  match a with
  | ⟨0, _⟩ => show win0_10.index t 0 * 128 + 1 * p.val = win0_8.index t 0 * 128 + p.val; rw [e2]; omega
  | ⟨1, _⟩ => show win0_10.index t 1 * 1024 + 1 * q.val = win0_8.index t 1 * 1024 + q.val; rw [e3]; omega

/-! ## What each point writes back -/

/-- The three results, as functions of the arrays the region finds. -/
abbrev spikesArr (c : Dev nD) : S2048x4096.Idx → EReal := spikesOf 0x3D4CCCCD#32 (V c main_arg1 : S2048x4096.Idx → EReal) (V c main_arg2 : S2048x4096.Idx → EReal)
abbrev potentialArr (c : Dev nD) : S2048x4096.Idx → EReal := potentialOf 0x3D4CCCCD#32 (V c main_arg1 : S2048x4096.Idx → EReal) (V c main_arg2 : S2048x4096.Idx → EReal)
abbrev currentArr (c : Dev nD) : S2048x4096.Idx → EReal :=
  currentOf (V c main_arg2 : S2048x4096.Idx → EReal) (V c main_v0 : S2048x1024.Idx → EReal) (V c main_v1 : S2048x4096.Idx → EReal) (V c main_v2 : S2048x1024.Idx → EReal)
    (V c main_v17 : S4096x1024.Idx → EReal) (V c main_v5 : S4096x4096.Idx → EReal) (V c main_v9 : S4096x1024.Idx → EReal)

theorem spikes_block (c : Dev nD) (t : Fin cfg0.N) (y : S128x1024.Idx) :
    k0_pay6 (iblk0 V c 6 t) (iblk0 V c 7 t) y = spikesArr V c (((cfg0.win 8).blk t).view.emb y) := by
  obtain ⟨p, q, rfl⟩ : ∃ (p : Fin 128) (q : Fin 1024), y = ix2 p q := ⟨y 0, y 1, eq_ix2 y⟩
  refine (spikes0 (iblk0 V c 6 t) (iblk0 V c 7 t) (ix2 p q)).trans ?_
  rw [place8, read_v, read_i]
  rfl

theorem potential_block (c : Dev nD) (t : Fin cfg0.N) (y : S128x1024.Idx) :
    k0_pay1 (k0_pay4 (iblk0 V c 6 t) (iblk0 V c 7 t)) (k0_pay6 (iblk0 V c 6 t) (iblk0 V c 7 t)) (Scalar.ofBits .f32 0x3F800000#32) y
      = potentialArr V c (((cfg0.win 9).blk t).view.emb y) := by
  obtain ⟨p, q, rfl⟩ : ∃ (p : Fin 128) (q : Fin 1024), y = ix2 p q := ⟨y 0, y 1, eq_ix2 y⟩
  refine (potential0 (iblk0 V c 6 t) (iblk0 V c 7 t) (ix2 p q)).trans ?_
  rw [place9, read_v, read_i]
  rfl

theorem current_block (c : Dev nD) (t : Fin cfg0.N) (y : S128x1024.Idx) :
    k0_pay2 (k0_pay3 (iblk0 V c 0 t) (iblk0 V c 1 t) (iblk0 V c 2 t) (iblk0 V c 3 t) (iblk0 V c 4 t) (iblk0 V c 5 t)) (k0_pay5 (iblk0 V c 7 t)) y
      = currentArr V c (((cfg0.win 10).blk t).view.emb y) := by
  obtain ⟨p, q, rfl⟩ : ∃ (p : Fin 128) (q : Fin 1024), y = ix2 p q := ⟨y 0, y 1, eq_ix2 y⟩
  refine (current0 (iblk0 V c 0 t) (iblk0 V c 1 t) (iblk0 V c 2 t) (iblk0 V c 3 t) (iblk0 V c 4 t) (iblk0 V c 5 t) (iblk0 V c 7 t) p q).trans ?_
  rw [place10, read_i,
    rowDot_congr _ _ _ _ p q (row t p) (col t q) (fun l => read_x V c t p l) (fun l => read_Win V c t q l),
    rowDot_congr _ _ _ _ p q (row t p) (col t q) (fun l => read_se V c t p l) (fun l => read_Wp V c t q l),
    rowDot_congr _ _ _ _ p q (row t p) (col t q) (fun l => read_si V c t p l) (fun l => read_Wn V c t q l)]
  rfl

theorem flushed8 (c : Dev nD) (t : Fin cfg0.N) :
    (dat0 V c).flushed 8 t = ((cfg0.win 8).blk t).view.read (Elt Ideal) (spikesArr V c) := by
  show (cfg0.win 8).cut (grid0.coords t) ((dat0 V c).after 8 t) = _
  rw [after0_8]
  unfold out0_8
  rw [View.canon_unit_zero hz]
  simp only [View.ld_unit_zero (S := S128x1024) hz]
  exact funext fun y => spikes_block V c t y

theorem flushed9 (c : Dev nD) (t : Fin cfg0.N) :
    (dat0 V c).flushed 9 t = ((cfg0.win 9).blk t).view.read (Elt Ideal) (potentialArr V c) := by
  show (cfg0.win 9).cut (grid0.coords t) ((dat0 V c).after 9 t) = _
  rw [after0_9]
  unfold out0_9
  rw [View.canon_unit_zero hz]
  simp only [View.ld_unit_zero (S := S128x1024) hz]
  exact funext fun y => potential_block V c t y

theorem flushed10 (c : Dev nD) (t : Fin cfg0.N) :
    (dat0 V c).flushed 10 t = ((cfg0.win 10).blk t).view.read (Elt Ideal) (currentArr V c) := by
  show (cfg0.win 10).cut (grid0.coords t) ((dat0 V c).after 10 t) = _
  rw [after0_10]
  unfold out0_10
  rw [View.canon_unit_zero hz]
  simp only [View.ld_unit_zero (S := S128x1024) hz, View.ld_unit_zero (S := S128x4096) hz, View.ld_unit_zero (S := S1024x1024) hz,
    View.ld_unit_zero (S := S1024x4096) hz]
  exact funext fun y => current_block V c t y

/-! ## The blocks cover the arrays -/

theorem mem_block8 (t : Fin cfg0.N) (i : S2048x4096.Idx) (h0 : win0_8.index t 0 * 128 ≤ (i 0).val ∧ (i 0).val < win0_8.index t 0 * 128 + 128)
    (h1 : win0_8.index t 1 * 1024 ≤ (i 1).val ∧ (i 1).val < win0_8.index t 1 * 1024 + 1024) : i ∈ ((cfg0.win 8).blk t).view.set := by
  show i ∈ ((View.whole main_v19_0).slice (win0_8.rect t)).set
  rw [View.set_slice_whole, Rect.mem_set_unit]
  intro a
  match a with
  | ⟨0, _⟩ => exact h0
  | ⟨1, _⟩ => exact h1

theorem mem_block9 (t : Fin cfg0.N) (i : S2048x4096.Idx) (h0 : win0_9.index t 0 * 128 ≤ (i 0).val ∧ (i 0).val < win0_9.index t 0 * 128 + 128)
    (h1 : win0_9.index t 1 * 1024 ≤ (i 1).val ∧ (i 1).val < win0_9.index t 1 * 1024 + 1024) : i ∈ ((cfg0.win 9).blk t).view.set := by
  show i ∈ ((View.whole main_v19_1).slice (win0_9.rect t)).set
  rw [View.set_slice_whole, Rect.mem_set_unit]
  intro a
  match a with
  | ⟨0, _⟩ => exact h0
  | ⟨1, _⟩ => exact h1

theorem mem_block10 (t : Fin cfg0.N) (i : S2048x4096.Idx) (h0 : win0_10.index t 0 * 128 ≤ (i 0).val ∧ (i 0).val < win0_10.index t 0 * 128 + 128)
    (h1 : win0_10.index t 1 * 1024 ≤ (i 1).val ∧ (i 1).val < win0_10.index t 1 * 1024 + 1024) : i ∈ ((cfg0.win 10).blk t).view.set := by
  show i ∈ ((View.whole main_v19_2).slice (win0_10.rect t)).set
  rw [View.set_slice_whole, Rect.mem_set_unit]
  intro a
  match a with
  | ⟨0, _⟩ => exact h0
  | ⟨1, _⟩ => exact h1

/-- Every index of result 0's array is in some point's block: the blocks tile the array. -/
theorem cover8 (i : S2048x4096.Idx) : ∃ t : Fin cfg0.N, (cfg0.win 8).flush t = true ∧ i ∈ ((cfg0.win 8).blk t).view.set := by
  have hi0 : (i 0).val < 2048 := (i 0).isLt
  have hi1 : (i 1).val < 4096 := (i 1).isLt
  obtain ⟨t, ht0, ht1⟩ := idx_onto ⟨(i 0).val / 128, by omega⟩ ⟨(i 1).val / 1024, by omega⟩
  obtain ⟨-, -, -, -, e0, e1, e2, e3⟩ := idx_state t
  have q0 : win0_8.index t 0 = (i 0).val / 128 := ht0
  have q1 : win0_8.index t 1 = (i 1).val / 1024 := ht1
  exact ⟨t, flush0_8 t, mem_block8 t i (by omega) (by omega)⟩

/-- Every index of result 1's array is in some point's block: the blocks tile the array. -/
theorem cover9 (i : S2048x4096.Idx) : ∃ t : Fin cfg0.N, (cfg0.win 9).flush t = true ∧ i ∈ ((cfg0.win 9).blk t).view.set := by
  have hi0 : (i 0).val < 2048 := (i 0).isLt
  have hi1 : (i 1).val < 4096 := (i 1).isLt
  obtain ⟨t, ht0, ht1⟩ := idx_onto ⟨(i 0).val / 128, by omega⟩ ⟨(i 1).val / 1024, by omega⟩
  obtain ⟨-, -, -, -, e0, e1, e2, e3⟩ := idx_state t
  have q0 : win0_8.index t 0 = (i 0).val / 128 := ht0
  have q1 : win0_8.index t 1 = (i 1).val / 1024 := ht1
  exact ⟨t, flush0_9 t, mem_block9 t i (by rw [e0]; omega) (by rw [e1]; omega)⟩

/-- Every index of result 2's array is in some point's block: the blocks tile the array. -/
theorem cover10 (i : S2048x4096.Idx) : ∃ t : Fin cfg0.N, (cfg0.win 10).flush t = true ∧ i ∈ ((cfg0.win 10).blk t).view.set := by
  have hi0 : (i 0).val < 2048 := (i 0).isLt
  have hi1 : (i 1).val < 4096 := (i 1).isLt
  obtain ⟨t, ht0, ht1⟩ := idx_onto ⟨(i 0).val / 128, by omega⟩ ⟨(i 1).val / 1024, by omega⟩
  obtain ⟨-, -, -, -, e0, e1, e2, e3⟩ := idx_state t
  have q0 : win0_8.index t 0 = (i 0).val / 128 := ht0
  have q1 : win0_8.index t 1 = (i 1).val / 1024 := ht1
  exact ⟨t, flush0_10 t, mem_block10 t i (by rw [e2]; omega) (by rw [e3]; omega)⟩

/-! ## The result arrays after the region -/

theorem spikes_array (c : Dev nD) : (dat0 V c).arrAt 8 cfg0.N = spikesArr V c :=
  (dat0 V c).arrAt_eq_of_cover 8 (spikesArr V c) (fun t _ => flushed8 V c t) cover8

theorem potential_array (c : Dev nD) : (dat0 V c).arrAt 9 cfg0.N = potentialArr V c :=
  (dat0 V c).arrAt_eq_of_cover 9 (potentialArr V c) (fun t _ => flushed9 V c t) cover9

theorem current_array (c : Dev nD) : (dat0 V c).arrAt 10 cfg0.N = currentArr V c :=
  (dat0 V c).arrAt_eq_of_cover 10 (currentArr V c) (fun t _ => flushed10 V c t) cover10

end Cert.KernelIdeal.First

end
-- ==== Proof.Second.lean ====
/-
  The second region: the inhibitory neurons' step, block by block.

  The region's grid tiles its three result arrays with blocks of 256 rows by 1024 columns.  At a point the body reads
  the 256 rows of the inputs and of the two spike arrays that its block's rows name, the 1024 rows of each weight matrix
  that its block's columns name, and the block of the potentials and currents; what it stores is the step of
  Proof/KernelStep.lean on those.  Read back through the blocks: entry `(r, j)` of each result is the step at `(r, j)` of
  the whole arrays, the inner products taken over whole rows.  The blocks cover the arrays, so each result array ends
  holding that function of the arrays the region found.
-/
import proofs.«153620_j18176301596897_2_alg».proof.Proof.Gen.KernelIdeal.Frame
import proofs.«153620_j18176301596897_2_alg».proof.Proof.KernelStep
import proofs.«153620_j18176301596897_2_alg».proof.Proof.LifArrays
import Idealize.ShloMosaic.Lib.Pipeline.Value

set_option maxRecDepth 16384

noncomputable section

namespace Cert.KernelIdeal.Second

open Cert.KernelIdeal Cert.KernelIdeal.Gen Idealize.ShloMosaic Idealize.ShloMosaic.TcCoe Idealize.SL.Sem
open Idealize.ShloMosaic.ValueIdx Cert.Lif Cert.KernelIdeal.Step
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the grid -/

/-- The activations' blocks follow the result's row block and span all columns. -/
theorem idx_rows : ∀ t : Fin cfg1.N, win1_0.index t 0 = win1_8.index t 0 ∧ win1_0.index t 1 = 0
    ∧ win1_1.index t 0 = win1_8.index t 0 ∧ win1_1.index t 1 = 0
    ∧ win1_2.index t 0 = win1_8.index t 0 ∧ win1_2.index t 1 = 0 :=
  (by decide +kernel : ∀ t : Fin grid1.N, _)

/-- The weights' blocks follow the result's column block and span all columns. -/
theorem idx_weights : ∀ t : Fin cfg1.N, win1_3.index t 0 = win1_8.index t 1 ∧ win1_3.index t 1 = 0
    ∧ win1_4.index t 0 = win1_8.index t 1 ∧ win1_4.index t 1 = 0
    ∧ win1_5.index t 0 = win1_8.index t 1 ∧ win1_5.index t 1 = 0 :=
  (by decide +kernel : ∀ t : Fin grid1.N, _)

/-- The state's blocks and the three results' blocks are one block. -/
theorem idx_state : ∀ t : Fin cfg1.N, win1_6.index t 0 = win1_8.index t 0 ∧ win1_6.index t 1 = win1_8.index t 1
    ∧ win1_7.index t 0 = win1_8.index t 0 ∧ win1_7.index t 1 = win1_8.index t 1
    ∧ win1_9.index t 0 = win1_8.index t 0 ∧ win1_9.index t 1 = win1_8.index t 1
    ∧ win1_10.index t 0 = win1_8.index t 0 ∧ win1_10.index t 1 = win1_8.index t 1 :=
  (by decide +kernel : ∀ t : Fin grid1.N, _)

theorem idx_range : ∀ t : Fin cfg1.N, win1_8.index t 0 ≤ 7 ∧ win1_8.index t 1 ≤ 0 :=
  (by decide +kernel : ∀ t : Fin grid1.N, _)

/-- Every block of the result is some point's. -/
theorem idx_onto : ∀ (q0 : Fin 8) (q1 : Fin 1), ∃ t : Fin cfg1.N, win1_8.index t 0 = q0.val ∧ win1_8.index t 1 = q1.val :=
  (by decide +kernel : ∀ (q0 : Fin 8) (q1 : Fin 1), ∃ t : Fin grid1.N, win1_8.index t 0 = q0.val ∧ win1_8.index t 1 = q1.val)

/-- The array row of row `p` of point `t`'s block. -/
abbrev row (t : Fin cfg1.N) (p : Fin 256) : Fin 2048 := ⟨win1_8.index t 0 * 256 + p.val, by have := (idx_range t).1; have := p.isLt; omega⟩
/-- The array column of column `q` of point `t`'s block: also the weight row it names. -/
abbrev col (t : Fin cfg1.N) (q : Fin 1024) : Fin 1024 := ⟨win1_8.index t 1 * 1024 + q.val, by have := (idx_range t).2; have := q.isLt; omega⟩

/-! ## The blocks the body reads, as rows of the arrays -/

theorem read_x (c : Dev nD) (t : Fin cfg1.N) (p : Fin 256) (l : Fin 1024) :
    (iblk1 V c 0 t : S256x1024.Idx → EReal) (ix2 p l) = (V c main_v0 : S2048x1024.Idx → EReal) (ix2 (row t p) l) := by
  obtain ⟨e0, e1, -, -, -, -⟩ := idx_rows t
  show V c main_v0 (((cfg1.win 0).blk t).view.emb (ix2 p l : S256x1024.Idx)) = _
  refine congrArg (V c main_v0) (funext fun a => Fin.ext ?_)
  match a with
  | ⟨0, _⟩ => show win1_0.index t 0 * 256 + 1 * p.val = win1_8.index t 0 * 256 + p.val; rw [e0]; omega
  | ⟨1, _⟩ => show win1_0.index t 1 * 1024 + 1 * l.val = l.val; rw [e1]; omega

theorem read_se (c : Dev nD) (t : Fin cfg1.N) (p : Fin 256) (l : Fin 4096) :
    (iblk1 V c 1 t : S256x4096.Idx → EReal) (ix2 p l) = (V c main_v1 : S2048x4096.Idx → EReal) (ix2 (row t p) l) := by
  obtain ⟨-, -, e0, e1, -, -⟩ := idx_rows t
  show V c main_v1 (((cfg1.win 1).blk t).view.emb (ix2 p l : S256x4096.Idx)) = _
  refine congrArg (V c main_v1) (funext fun a => Fin.ext ?_)
  match a with
  | ⟨0, _⟩ => show win1_1.index t 0 * 256 + 1 * p.val = win1_8.index t 0 * 256 + p.val; rw [e0]; omega
  | ⟨1, _⟩ => show win1_1.index t 1 * 4096 + 1 * l.val = l.val; rw [e1]; omega

theorem read_si (c : Dev nD) (t : Fin cfg1.N) (p : Fin 256) (l : Fin 1024) :
    (iblk1 V c 2 t : S256x1024.Idx → EReal) (ix2 p l) = (V c main_v2 : S2048x1024.Idx → EReal) (ix2 (row t p) l) := by
  obtain ⟨-, -, -, -, e0, e1⟩ := idx_rows t
  show V c main_v2 (((cfg1.win 2).blk t).view.emb (ix2 p l : S256x1024.Idx)) = _
  refine congrArg (V c main_v2) (funext fun a => Fin.ext ?_)
  match a with
  | ⟨0, _⟩ => show win1_2.index t 0 * 256 + 1 * p.val = win1_8.index t 0 * 256 + p.val; rw [e0]; omega
  | ⟨1, _⟩ => show win1_2.index t 1 * 1024 + 1 * l.val = l.val; rw [e1]; omega

theorem read_Win (c : Dev nD) (t : Fin cfg1.N) (q : Fin 1024) (l : Fin 1024) :
    (iblk1 V c 3 t : S1024x1024.Idx → EReal) (ix2 q l) = (V c main_v18 : S1024x1024.Idx → EReal) (ix2 (col t q) l) := by
  obtain ⟨e0, e1, -, -, -, -⟩ := idx_weights t
  show V c main_v18 (((cfg1.win 3).blk t).view.emb (ix2 q l : S1024x1024.Idx)) = _
  refine congrArg (V c main_v18) (funext fun a => Fin.ext ?_)
  match a with
  | ⟨0, _⟩ => show win1_3.index t 0 * 1024 + 1 * q.val = win1_8.index t 1 * 1024 + q.val; rw [e0]; omega
  | ⟨1, _⟩ => show win1_3.index t 1 * 1024 + 1 * l.val = l.val; rw [e1]; omega

theorem read_Wp (c : Dev nD) (t : Fin cfg1.N) (q : Fin 1024) (l : Fin 4096) :
    (iblk1 V c 4 t : S1024x4096.Idx → EReal) (ix2 q l) = (V c main_v12 : S1024x4096.Idx → EReal) (ix2 (col t q) l) := by
  obtain ⟨-, -, e0, e1, -, -⟩ := idx_weights t
  show V c main_v12 (((cfg1.win 4).blk t).view.emb (ix2 q l : S1024x4096.Idx)) = _
  refine congrArg (V c main_v12) (funext fun a => Fin.ext ?_)
  match a with
  | ⟨0, _⟩ => show win1_4.index t 0 * 1024 + 1 * q.val = win1_8.index t 1 * 1024 + q.val; rw [e0]; omega
  | ⟨1, _⟩ => show win1_4.index t 1 * 4096 + 1 * l.val = l.val; rw [e1]; omega

theorem read_Wn (c : Dev nD) (t : Fin cfg1.N) (q : Fin 1024) (l : Fin 1024) :
    (iblk1 V c 5 t : S1024x1024.Idx → EReal) (ix2 q l) = (V c main_v16 : S1024x1024.Idx → EReal) (ix2 (col t q) l) := by
  obtain ⟨-, -, -, -, e0, e1⟩ := idx_weights t
  show V c main_v16 (((cfg1.win 5).blk t).view.emb (ix2 q l : S1024x1024.Idx)) = _
  refine congrArg (V c main_v16) (funext fun a => Fin.ext ?_)
  match a with
  | ⟨0, _⟩ => show win1_5.index t 0 * 1024 + 1 * q.val = win1_8.index t 1 * 1024 + q.val; rw [e0]; omega
  | ⟨1, _⟩ => show win1_5.index t 1 * 1024 + 1 * l.val = l.val; rw [e1]; omega

theorem read_v (c : Dev nD) (t : Fin cfg1.N) (p : Fin 256) (q : Fin 1024) :
    (iblk1 V c 6 t : S256x1024.Idx → EReal) (ix2 p q) = (V c main_arg3 : S2048x1024.Idx → EReal) (ix2 (row t p) (col t q)) := by
  obtain ⟨e0, e1, -, -, -, -, -, -⟩ := idx_state t
  show V c main_arg3 (((cfg1.win 6).blk t).view.emb (ix2 p q : S256x1024.Idx)) = _
  refine congrArg (V c main_arg3) (funext fun a => Fin.ext ?_)
  match a with
  | ⟨0, _⟩ => show win1_6.index t 0 * 256 + 1 * p.val = win1_8.index t 0 * 256 + p.val; rw [e0]; omega
  | ⟨1, _⟩ => show win1_6.index t 1 * 1024 + 1 * q.val = win1_8.index t 1 * 1024 + q.val; rw [e1]; omega

theorem read_i (c : Dev nD) (t : Fin cfg1.N) (p : Fin 256) (q : Fin 1024) :
    (iblk1 V c 7 t : S256x1024.Idx → EReal) (ix2 p q) = (V c main_arg4 : S2048x1024.Idx → EReal) (ix2 (row t p) (col t q)) := by
  obtain ⟨-, -, e0, e1, -, -, -, -⟩ := idx_state t
  show V c main_arg4 (((cfg1.win 7).blk t).view.emb (ix2 p q : S256x1024.Idx)) = _
  refine congrArg (V c main_arg4) (funext fun a => Fin.ext ?_)
  match a with
  | ⟨0, _⟩ => show win1_7.index t 0 * 256 + 1 * p.val = win1_8.index t 0 * 256 + p.val; rw [e0]; omega
  | ⟨1, _⟩ => show win1_7.index t 1 * 1024 + 1 * q.val = win1_8.index t 1 * 1024 + q.val; rw [e1]; omega

/-! ## Where a block's entries sit in the result arrays -/

/-- Entry `(p, q)` of result 0's block at point `t` sits at `(row t p, col t q)` of its array. -/
theorem place8 (t : Fin cfg1.N) (p : Fin 256) (q : Fin 1024) :
    ((cfg1.win 8).blk t).view.emb (ix2 p q : S256x1024.Idx) = (ix2 (row t p) (col t q) : S2048x1024.Idx) := by
  obtain ⟨-, -, -, -, e0, e1, e2, e3⟩ := idx_state t
  funext a; apply Fin.ext
  match a with
  | ⟨0, _⟩ => show win1_8.index t 0 * 256 + 1 * p.val = win1_8.index t 0 * 256 + p.val; omega
  | ⟨1, _⟩ => show win1_8.index t 1 * 1024 + 1 * q.val = win1_8.index t 1 * 1024 + q.val; omega

/-- Entry `(p, q)` of result 1's block at point `t` sits at `(row t p, col t q)` of its array. -/
theorem place9 (t : Fin cfg1.N) (p : Fin 256) (q : Fin 1024) :
    ((cfg1.win 9).blk t).view.emb (ix2 p q : S256x1024.Idx) = (ix2 (row t p) (col t q) : S2048x1024.Idx) := by
  obtain ⟨-, -, -, -, e0, e1, e2, e3⟩ := idx_state t
  funext a; apply Fin.ext
  match a with
  | ⟨0, _⟩ => show win1_9.index t 0 * 256 + 1 * p.val = win1_8.index t 0 * 256 + p.val; rw [e0]; omega
  | ⟨1, _⟩ => show win1_9.index t 1 * 1024 + 1 * q.val = win1_8.index t 1 * 1024 + q.val; rw [e1]; omega

/-- Entry `(p, q)` of result 2's block at point `t` sits at `(row t p, col t q)` of its array. -/
theorem place10 (t : Fin cfg1.N) (p : Fin 256) (q : Fin 1024) :
    ((cfg1.win 10).blk t).view.emb (ix2 p q : S256x1024.Idx) = (ix2 (row t p) (col t q) : S2048x1024.Idx) := by
  obtain ⟨-, -, -, -, e0, e1, e2, e3⟩ := idx_state t
  funext a; apply Fin.ext
  match a with
  | ⟨0, _⟩ => show win1_10.index t 0 * 256 + 1 * p.val = win1_8.index t 0 * 256 + p.val; rw [e2]; omega
  | ⟨1, _⟩ => show win1_10.index t 1 * 1024 + 1 * q.val = win1_8.index t 1 * 1024 + q.val; rw [e3]; omega

/-! ## What each point writes back -/

/-- The three results, as functions of the arrays the region finds. -/
abbrev spikesArr (c : Dev nD) : S2048x1024.Idx → EReal := spikesOf 0x3DCCCCCD#32 (V c main_arg3 : S2048x1024.Idx → EReal) (V c main_arg4 : S2048x1024.Idx → EReal)
abbrev potentialArr (c : Dev nD) : S2048x1024.Idx → EReal := potentialOf 0x3DCCCCCD#32 (V c main_arg3 : S2048x1024.Idx → EReal) (V c main_arg4 : S2048x1024.Idx → EReal)
abbrev currentArr (c : Dev nD) : S2048x1024.Idx → EReal :=
  currentOf (V c main_arg4 : S2048x1024.Idx → EReal) (V c main_v0 : S2048x1024.Idx → EReal) (V c main_v1 : S2048x4096.Idx → EReal) (V c main_v2 : S2048x1024.Idx → EReal)
    (V c main_v18 : S1024x1024.Idx → EReal) (V c main_v12 : S1024x4096.Idx → EReal) (V c main_v16 : S1024x1024.Idx → EReal)

theorem spikes_block (c : Dev nD) (t : Fin cfg1.N) (y : S256x1024.Idx) :
    k1_pay6 (iblk1 V c 6 t) (iblk1 V c 7 t) y = spikesArr V c (((cfg1.win 8).blk t).view.emb y) := by
  obtain ⟨p, q, rfl⟩ : ∃ (p : Fin 256) (q : Fin 1024), y = ix2 p q := ⟨y 0, y 1, eq_ix2 y⟩
  refine (spikes1 (iblk1 V c 6 t) (iblk1 V c 7 t) (ix2 p q)).trans ?_
  rw [place8, read_v, read_i]
  rfl

theorem potential_block (c : Dev nD) (t : Fin cfg1.N) (y : S256x1024.Idx) :
    k1_pay1 (k1_pay4 (iblk1 V c 6 t) (iblk1 V c 7 t)) (k1_pay6 (iblk1 V c 6 t) (iblk1 V c 7 t)) (k1_pay7 (F := Ideal)) y
      = potentialArr V c (((cfg1.win 9).blk t).view.emb y) := by
  obtain ⟨p, q, rfl⟩ : ∃ (p : Fin 256) (q : Fin 1024), y = ix2 p q := ⟨y 0, y 1, eq_ix2 y⟩
  refine (potential1 (iblk1 V c 6 t) (iblk1 V c 7 t) (ix2 p q)).trans ?_
  rw [place9, read_v, read_i]
  rfl

theorem current_block (c : Dev nD) (t : Fin cfg1.N) (y : S256x1024.Idx) :
    k1_pay2 (k1_pay3 (iblk1 V c 0 t) (iblk1 V c 1 t) (iblk1 V c 2 t) (iblk1 V c 3 t) (iblk1 V c 4 t) (iblk1 V c 5 t)) (k1_pay5 (iblk1 V c 7 t)) y
      = currentArr V c (((cfg1.win 10).blk t).view.emb y) := by
  obtain ⟨p, q, rfl⟩ : ∃ (p : Fin 256) (q : Fin 1024), y = ix2 p q := ⟨y 0, y 1, eq_ix2 y⟩
  refine (current1 (iblk1 V c 0 t) (iblk1 V c 1 t) (iblk1 V c 2 t) (iblk1 V c 3 t) (iblk1 V c 4 t) (iblk1 V c 5 t) (iblk1 V c 7 t) p q).trans ?_
  rw [place10, read_i,
    rowDot_congr _ _ _ _ p q (row t p) (col t q) (fun l => read_x V c t p l) (fun l => read_Win V c t q l),
    rowDot_congr _ _ _ _ p q (row t p) (col t q) (fun l => read_se V c t p l) (fun l => read_Wp V c t q l),
    rowDot_congr _ _ _ _ p q (row t p) (col t q) (fun l => read_si V c t p l) (fun l => read_Wn V c t q l)]
  rfl

theorem flushed8 (c : Dev nD) (t : Fin cfg1.N) :
    (dat1 V c).flushed 8 t = ((cfg1.win 8).blk t).view.read (Elt Ideal) (spikesArr V c) := by
  show (cfg1.win 8).cut (grid1.coords t) ((dat1 V c).after 8 t) = _
  rw [after1_8]
  unfold out1_8
  rw [View.canon_unit_zero hz]
  simp only [View.ld_unit_zero (S := S256x1024) hz]
  exact funext fun y => spikes_block V c t y

theorem flushed9 (c : Dev nD) (t : Fin cfg1.N) :
    (dat1 V c).flushed 9 t = ((cfg1.win 9).blk t).view.read (Elt Ideal) (potentialArr V c) := by
  show (cfg1.win 9).cut (grid1.coords t) ((dat1 V c).after 9 t) = _
  rw [after1_9]
  unfold out1_9
  rw [View.canon_unit_zero hz]
  simp only [View.ld_unit_zero (S := S256x1024) hz]
  exact funext fun y => potential_block V c t y

theorem flushed10 (c : Dev nD) (t : Fin cfg1.N) :
    (dat1 V c).flushed 10 t = ((cfg1.win 10).blk t).view.read (Elt Ideal) (currentArr V c) := by
  show (cfg1.win 10).cut (grid1.coords t) ((dat1 V c).after 10 t) = _
  rw [after1_10]
  unfold out1_10
  rw [View.canon_unit_zero hz]
  simp only [View.ld_unit_zero (S := S256x1024) hz, View.ld_unit_zero (S := S256x4096) hz, View.ld_unit_zero (S := S1024x1024) hz,
    View.ld_unit_zero (S := S1024x4096) hz]
  exact funext fun y => current_block V c t y

/-! ## The blocks cover the arrays -/

theorem mem_block8 (t : Fin cfg1.N) (i : S2048x1024.Idx) (h0 : win1_8.index t 0 * 256 ≤ (i 0).val ∧ (i 0).val < win1_8.index t 0 * 256 + 256)
    (h1 : win1_8.index t 1 * 1024 ≤ (i 1).val ∧ (i 1).val < win1_8.index t 1 * 1024 + 1024) : i ∈ ((cfg1.win 8).blk t).view.set := by
  show i ∈ ((View.whole main_v20_0).slice (win1_8.rect t)).set
  rw [View.set_slice_whole, Rect.mem_set_unit]
  intro a
  match a with
  | ⟨0, _⟩ => exact h0
  | ⟨1, _⟩ => exact h1

theorem mem_block9 (t : Fin cfg1.N) (i : S2048x1024.Idx) (h0 : win1_9.index t 0 * 256 ≤ (i 0).val ∧ (i 0).val < win1_9.index t 0 * 256 + 256)
    (h1 : win1_9.index t 1 * 1024 ≤ (i 1).val ∧ (i 1).val < win1_9.index t 1 * 1024 + 1024) : i ∈ ((cfg1.win 9).blk t).view.set := by
  show i ∈ ((View.whole main_v20_1).slice (win1_9.rect t)).set
  rw [View.set_slice_whole, Rect.mem_set_unit]
  intro a
  match a with
  | ⟨0, _⟩ => exact h0
  | ⟨1, _⟩ => exact h1

theorem mem_block10 (t : Fin cfg1.N) (i : S2048x1024.Idx) (h0 : win1_10.index t 0 * 256 ≤ (i 0).val ∧ (i 0).val < win1_10.index t 0 * 256 + 256)
    (h1 : win1_10.index t 1 * 1024 ≤ (i 1).val ∧ (i 1).val < win1_10.index t 1 * 1024 + 1024) : i ∈ ((cfg1.win 10).blk t).view.set := by
  show i ∈ ((View.whole main_v20_2).slice (win1_10.rect t)).set
  rw [View.set_slice_whole, Rect.mem_set_unit]
  intro a
  match a with
  | ⟨0, _⟩ => exact h0
  | ⟨1, _⟩ => exact h1

/-- Every index of result 0's array is in some point's block: the blocks tile the array. -/
theorem cover8 (i : S2048x1024.Idx) : ∃ t : Fin cfg1.N, (cfg1.win 8).flush t = true ∧ i ∈ ((cfg1.win 8).blk t).view.set := by
  have hi0 : (i 0).val < 2048 := (i 0).isLt
  have hi1 : (i 1).val < 1024 := (i 1).isLt
  obtain ⟨t, ht0, ht1⟩ := idx_onto ⟨(i 0).val / 256, by omega⟩ ⟨(i 1).val / 1024, by omega⟩
  obtain ⟨-, -, -, -, e0, e1, e2, e3⟩ := idx_state t
  have q0 : win1_8.index t 0 = (i 0).val / 256 := ht0
  have q1 : win1_8.index t 1 = (i 1).val / 1024 := ht1
  exact ⟨t, flush1_8 t, mem_block8 t i (by omega) (by omega)⟩

/-- Every index of result 1's array is in some point's block: the blocks tile the array. -/
theorem cover9 (i : S2048x1024.Idx) : ∃ t : Fin cfg1.N, (cfg1.win 9).flush t = true ∧ i ∈ ((cfg1.win 9).blk t).view.set := by
  have hi0 : (i 0).val < 2048 := (i 0).isLt
  have hi1 : (i 1).val < 1024 := (i 1).isLt
  obtain ⟨t, ht0, ht1⟩ := idx_onto ⟨(i 0).val / 256, by omega⟩ ⟨(i 1).val / 1024, by omega⟩
  obtain ⟨-, -, -, -, e0, e1, e2, e3⟩ := idx_state t
  have q0 : win1_8.index t 0 = (i 0).val / 256 := ht0
  have q1 : win1_8.index t 1 = (i 1).val / 1024 := ht1
  exact ⟨t, flush1_9 t, mem_block9 t i (by rw [e0]; omega) (by rw [e1]; omega)⟩

/-- Every index of result 2's array is in some point's block: the blocks tile the array. -/
theorem cover10 (i : S2048x1024.Idx) : ∃ t : Fin cfg1.N, (cfg1.win 10).flush t = true ∧ i ∈ ((cfg1.win 10).blk t).view.set := by
  have hi0 : (i 0).val < 2048 := (i 0).isLt
  have hi1 : (i 1).val < 1024 := (i 1).isLt
  obtain ⟨t, ht0, ht1⟩ := idx_onto ⟨(i 0).val / 256, by omega⟩ ⟨(i 1).val / 1024, by omega⟩
  obtain ⟨-, -, -, -, e0, e1, e2, e3⟩ := idx_state t
  have q0 : win1_8.index t 0 = (i 0).val / 256 := ht0
  have q1 : win1_8.index t 1 = (i 1).val / 1024 := ht1
  exact ⟨t, flush1_10 t, mem_block10 t i (by rw [e2]; omega) (by rw [e3]; omega)⟩

/-! ## The result arrays after the region -/

theorem spikes_array (c : Dev nD) : (dat1 V c).arrAt 8 cfg1.N = spikesArr V c :=
  (dat1 V c).arrAt_eq_of_cover 8 (spikesArr V c) (fun t _ => flushed8 V c t) cover8

theorem potential_array (c : Dev nD) : (dat1 V c).arrAt 9 cfg1.N = potentialArr V c :=
  (dat1 V c).arrAt_eq_of_cover 9 (potentialArr V c) (fun t _ => flushed9 V c t) cover9

theorem current_array (c : Dev nD) : (dat1 V c).arrAt 10 cfg1.N = currentArr V c :=
  (dat1 V c).arrAt_eq_of_cover 10 (currentArr V c) (fun t _ => flushed10 V c t) cover10

end Cert.KernelIdeal.Second

end
-- ==== Proof.KernelValue.lean ====
/-
  The two-region program's six results, as functions of its arguments.

  Each result array is left by its own region's write-backs and untouched afterwards; each region's blocks cover its
  arrays; each region finds the activations, the spikes and the input weights as given, the excitatory recurrent weights
  rectified and the inhibitory ones rectified and negated.  So: the spikes and the reset potentials are the pointwise step
  of the potentials and currents, and the new currents are the decayed currents plus the three products in the order the
  body adds them — the third against the negated rectified inhibitory weights.
-/
import proofs.«153620_j18176301596897_2_alg».proof.Proof.RegionsRun
import proofs.«153620_j18176301596897_2_alg».proof.Proof.Entry
import proofs.«153620_j18176301596897_2_alg».proof.Proof.First
import proofs.«153620_j18176301596897_2_alg».proof.Proof.Second

set_option maxRecDepth 16384

noncomputable section

namespace Cert.KernelIdeal.Whole

open Cert.KernelIdeal Cert.KernelIdeal.Gen Idealize.ShloMosaic Idealize.ShloMosaic.TcCoe Idealize.SL.Sem Cert.Lif

variable (m : (ℓ : Loc nD τ sig) → Buf (Elt Ideal) ℓ) (ρ : Dev nD → PrngReg)

/-! ## The excitatory neurons' results (first region) -/

theorem spikes_e (c : Dev nD) : W3 m ρ c (Proc.devRef .tc main_v19_0) = spikesOf 0x3D4CCCCD#32 (m ((c : Thread nD τ).loc main_arg1)) (m ((c : Thread nD τ).loc main_arg2)) := by
  refine (Entry.end_first m ρ c 8 (by decide)).trans ((First.spikes_array (V1 m ρ) c).trans ?_)
  show spikesOf _ (V1 m ρ c main_arg1 : S2048x4096.Idx → EReal) (V1 m ρ c main_arg2 : S2048x4096.Idx → EReal) = _
  rw [Entry.first_v, Entry.first_i]

theorem potential_e (c : Dev nD) : W3 m ρ c (Proc.devRef .tc main_v19_1) = potentialOf 0x3D4CCCCD#32 (m ((c : Thread nD τ).loc main_arg1)) (m ((c : Thread nD τ).loc main_arg2)) := by
  refine (Entry.end_first m ρ c 9 (by decide)).trans ((First.potential_array (V1 m ρ) c).trans ?_)
  show potentialOf _ (V1 m ρ c main_arg1 : S2048x4096.Idx → EReal) (V1 m ρ c main_arg2 : S2048x4096.Idx → EReal) = _
  rw [Entry.first_v, Entry.first_i]

theorem current_e (c : Dev nD) : W3 m ρ c (Proc.devRef .tc main_v19_2) = currentOf (m ((c : Thread nD τ).loc main_arg2)) (m ((c : Thread nD τ).loc main_arg0)) (m ((c : Thread nD τ).loc main_arg5)) (m ((c : Thread nD τ).loc main_arg6)) (m ((c : Thread nD τ).loc main_arg11)) (rect (m ((c : Thread nD τ).loc main_arg7))) (fun k => -(rect (m ((c : Thread nD τ).loc main_arg9)) k)) := by
  refine (Entry.end_first m ρ c 10 (by decide)).trans ((First.current_array (V1 m ρ) c).trans ?_)
  show currentOf (V1 m ρ c main_arg2 : S2048x4096.Idx → EReal) (V1 m ρ c main_v0 : S2048x1024.Idx → EReal)
    (V1 m ρ c main_v1 : S2048x4096.Idx → EReal) (V1 m ρ c main_v2 : S2048x1024.Idx → EReal) (V1 m ρ c main_v17 : S4096x1024.Idx → EReal)
    (V1 m ρ c main_v5 : S4096x4096.Idx → EReal) (V1 m ρ c main_v9 : S4096x1024.Idx → EReal) = _
  rw [Entry.first_i, Entry.first_x, Entry.first_se, Entry.first_si, Entry.first_Win, Entry.first_Wp, Entry.first_Wn]
  rfl

/-! ## The inhibitory neurons' results (second region) -/

theorem spikes_i (c : Dev nD) : W3 m ρ c (Proc.devRef .tc main_v20_0) = spikesOf 0x3DCCCCCD#32 (m ((c : Thread nD τ).loc main_arg3)) (m ((c : Thread nD τ).loc main_arg4)) := by
  refine (Entry.end_second m ρ c 8).trans ((Second.spikes_array (V2 m ρ) c).trans ?_)
  show spikesOf _ (V2 m ρ c main_arg3 : S2048x1024.Idx → EReal) (V2 m ρ c main_arg4 : S2048x1024.Idx → EReal) = _
  rw [Entry.second_v, Entry.second_i]

theorem potential_i (c : Dev nD) : W3 m ρ c (Proc.devRef .tc main_v20_1) = potentialOf 0x3DCCCCCD#32 (m ((c : Thread nD τ).loc main_arg3)) (m ((c : Thread nD τ).loc main_arg4)) := by
  refine (Entry.end_second m ρ c 9).trans ((Second.potential_array (V2 m ρ) c).trans ?_)
  show potentialOf _ (V2 m ρ c main_arg3 : S2048x1024.Idx → EReal) (V2 m ρ c main_arg4 : S2048x1024.Idx → EReal) = _
  rw [Entry.second_v, Entry.second_i]

theorem current_i (c : Dev nD) : W3 m ρ c (Proc.devRef .tc main_v20_2) = currentOf (m ((c : Thread nD τ).loc main_arg4)) (m ((c : Thread nD τ).loc main_arg0)) (m ((c : Thread nD τ).loc main_arg5)) (m ((c : Thread nD τ).loc main_arg6)) (m ((c : Thread nD τ).loc main_arg12)) (rect (m ((c : Thread nD τ).loc main_arg8))) (fun k => -(rect (m ((c : Thread nD τ).loc main_arg10)) k)) := by
  refine (Entry.end_second m ρ c 10).trans ((Second.current_array (V2 m ρ) c).trans ?_)
  show currentOf (V2 m ρ c main_arg4 : S2048x1024.Idx → EReal) (V2 m ρ c main_v0 : S2048x1024.Idx → EReal)
    (V2 m ρ c main_v1 : S2048x4096.Idx → EReal) (V2 m ρ c main_v2 : S2048x1024.Idx → EReal) (V2 m ρ c main_v18 : S1024x1024.Idx → EReal)
    (V2 m ρ c main_v12 : S1024x4096.Idx → EReal) (V2 m ρ c main_v16 : S1024x1024.Idx → EReal) = _
  rw [Entry.second_i, Entry.second_x, Entry.second_se, Entry.second_si, Entry.second_Win, Entry.second_Wp, Entry.second_Wn]
  rfl

/-! ## The run -/

/-- Every weakly fair execution terminates with the six results at these functions of the arguments and the arguments
    unchanged. -/
theorem run : θ_run defs (onTc (τ := τ) (main (F := Ideal))) ⟨m, fun _ => 0, ρ⟩ (fun r => ∀ c : Dev nD,
      r.2.mem ((c : Thread nD τ).loc main_v19_0) = spikesOf 0x3D4CCCCD#32 (m ((c : Thread nD τ).loc main_arg1)) (m ((c : Thread nD τ).loc main_arg2))
      ∧ r.2.mem ((c : Thread nD τ).loc main_v20_0) = spikesOf 0x3DCCCCCD#32 (m ((c : Thread nD τ).loc main_arg3)) (m ((c : Thread nD τ).loc main_arg4))
      ∧ r.2.mem ((c : Thread nD τ).loc main_v19_1) = potentialOf 0x3D4CCCCD#32 (m ((c : Thread nD τ).loc main_arg1)) (m ((c : Thread nD τ).loc main_arg2))
      ∧ r.2.mem ((c : Thread nD τ).loc main_v19_2) = currentOf (m ((c : Thread nD τ).loc main_arg2)) (m ((c : Thread nD τ).loc main_arg0)) (m ((c : Thread nD τ).loc main_arg5)) (m ((c : Thread nD τ).loc main_arg6)) (m ((c : Thread nD τ).loc main_arg11)) (rect (m ((c : Thread nD τ).loc main_arg7))) (fun k => -(rect (m ((c : Thread nD τ).loc main_arg9)) k))
      ∧ r.2.mem ((c : Thread nD τ).loc main_v20_1) = potentialOf 0x3DCCCCCD#32 (m ((c : Thread nD τ).loc main_arg3)) (m ((c : Thread nD τ).loc main_arg4))
      ∧ r.2.mem ((c : Thread nD τ).loc main_v20_2) = currentOf (m ((c : Thread nD τ).loc main_arg4)) (m ((c : Thread nD τ).loc main_arg0)) (m ((c : Thread nD τ).loc main_arg5)) (m ((c : Thread nD τ).loc main_arg6)) (m ((c : Thread nD τ).loc main_arg12)) (rect (m ((c : Thread nD τ).loc main_arg8))) (fun k => -(rect (m ((c : Thread nD τ).loc main_arg10)) k))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)) :=
  (θ_run defs _ _).mono (fun r h c =>
    ⟨(h c _ (mem_uc main_v19_0 (by decide))).trans (spikes_e m ρ c),
     (h c _ (mem_uc main_v20_0 (by decide))).trans (spikes_i m ρ c),
     (h c _ (mem_uc main_v19_1 (by decide))).trans (potential_e m ρ c),
     (h c _ (mem_uc main_v19_2 (by decide))).trans (current_e m ρ c),
     (h c _ (mem_uc main_v20_1 (by decide))).trans (potential_i m ρ c),
     (h c _ (mem_uc main_v20_2 (by decide))).trans (current_i m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c),
     (h c _ (mem_uc main_arg12 (by decide))).trans (W3_main_arg12 m ρ c)⟩)
    (run_held m ρ)

end Cert.KernelIdeal.Whole

end
-- ==== Proof.RefStep.lean ====
/-
  The reference's six results, as the layer's step on whole arrays.

  The reference computes the same step with whole-array operations: each product is a matrix product with a
  transposed weight matrix, read at `(r, j)` as the inner product of row `r` of the activations with row `j` of
  the weights (the transposition exchanges the weight's two coordinates); the rectification is a maximum with a
  broadcast zero; the inhibitory product is SUBTRACTED from the excitatory one before the input product is added; the
  spikes are the threshold test converted as an unsigned one-bit integer.
-/
import proofs.«153620_j18176301596897_2_alg».proof.Proof.Gen.ReferenceIdeal.Read
import proofs.«153620_j18176301596897_2_alg».proof.Proof.LifArrays

noncomputable section

namespace Cert.ReferenceIdeal.Step

open Cert.ReferenceIdeal Cert.ReferenceIdeal.Read Idealize.ShloMosaic Idealize.ShloMosaic.ValueIdx Cert.Lif

/-! ## The six products -/

/-- The input product of the excitatory neurons. -/
theorem in_e (x0 : S2048x1024.Idx → EReal) (x11 : S4096x1024.Idx → EReal) (i : S2048x4096.Idx) :
    val_main_v1 (F := Ideal) x0 x11 i = rowDot x0 x11 (i 0) (i 1) := by
  rw [val_main_v1_apply]
  unfold rowDot
  refine Finset.sum_congr rfl fun k _ => ?_
  rw [val_main_v0_apply]
  exact congrArg₂ (· * ·) (congrArg x0 (funext fun a => by match a with | ⟨0, _⟩ => rfl | ⟨1, _⟩ => rfl))
    (congrArg x11 (funext fun a => by match a with | ⟨0, _⟩ => rfl | ⟨1, _⟩ => rfl))

/-- The input product of the inhibitory neurons. -/
theorem in_i (x0 : S2048x1024.Idx → EReal) (x12 : S1024x1024.Idx → EReal) (i : S2048x1024.Idx) :
    val_main_v3 (F := Ideal) x0 x12 i = rowDot x0 x12 (i 0) (i 1) := by
  rw [val_main_v3_apply]
  unfold rowDot
  refine Finset.sum_congr rfl fun k _ => ?_
  rw [val_main_v2_apply]
  exact congrArg₂ (· * ·) (congrArg x0 (funext fun a => by match a with | ⟨0, _⟩ => rfl | ⟨1, _⟩ => rfl))
    (congrArg x12 (funext fun a => by match a with | ⟨0, _⟩ => rfl | ⟨1, _⟩ => rfl))

/-- The excitatory recurrent product of the excitatory neurons, through rectified weights. -/
theorem pos_e (x5 : S2048x4096.Idx → EReal) (x7 : S4096x4096.Idx → EReal) (i : S2048x4096.Idx) :
    val_main_v6 (F := Ideal) x5 x7 i = rowDot x5 (rect x7) (i 0) (i 1) := by
  rw [val_main_v6_apply]
  unfold rowDot
  refine Finset.sum_congr rfl fun k _ => ?_
  rw [val_main_v5_apply, val_main_v4_apply, val_main_call0_v0_apply, val_main_call0_cst_apply]
  exact congrArg₂ (· * ·) (congrArg x5 (funext fun a => by match a with | ⟨0, _⟩ => rfl | ⟨1, _⟩ => rfl))
    (congrArg (rect x7) (funext fun a => by match a with | ⟨0, _⟩ => rfl | ⟨1, _⟩ => rfl))

/-- The inhibitory recurrent product of the excitatory neurons, through rectified weights. -/
theorem neg_e (x6 : S2048x1024.Idx → EReal) (x9 : S4096x1024.Idx → EReal) (i : S2048x4096.Idx) :
    val_main_v9 (F := Ideal) x6 x9 i = rowDot x6 (rect x9) (i 0) (i 1) := by
  rw [val_main_v9_apply]
  unfold rowDot
  refine Finset.sum_congr rfl fun k _ => ?_
  rw [val_main_v8_apply, val_main_v7_apply, val_main_call1_v0_apply, val_main_call1_cst_apply]
  exact congrArg₂ (· * ·) (congrArg x6 (funext fun a => by match a with | ⟨0, _⟩ => rfl | ⟨1, _⟩ => rfl))
    (congrArg (rect x9) (funext fun a => by match a with | ⟨0, _⟩ => rfl | ⟨1, _⟩ => rfl))

/-- The excitatory recurrent product of the inhibitory neurons, through rectified weights. -/
theorem pos_i (x5 : S2048x4096.Idx → EReal) (x8 : S1024x4096.Idx → EReal) (i : S2048x1024.Idx) :
    val_main_v13 (F := Ideal) x5 x8 i = rowDot x5 (rect x8) (i 0) (i 1) := by
  rw [val_main_v13_apply]
  unfold rowDot
  refine Finset.sum_congr rfl fun k _ => ?_
  rw [val_main_v12_apply, val_main_v11_apply, val_main_call2_v0_apply, val_main_call2_cst_apply]
  exact congrArg₂ (· * ·) (congrArg x5 (funext fun a => by match a with | ⟨0, _⟩ => rfl | ⟨1, _⟩ => rfl))
    (congrArg (rect x8) (funext fun a => by match a with | ⟨0, _⟩ => rfl | ⟨1, _⟩ => rfl))

/-- The inhibitory recurrent product of the inhibitory neurons, through rectified weights. -/
theorem neg_i (x6 : S2048x1024.Idx → EReal) (x10 : S1024x1024.Idx → EReal) (i : S2048x1024.Idx) :
    val_main_v16 (F := Ideal) x6 x10 i = rowDot x6 (rect x10) (i 0) (i 1) := by
  rw [val_main_v16_apply]
  unfold rowDot
  refine Finset.sum_congr rfl fun k _ => ?_
  rw [val_main_v15_apply, val_main_v14_apply, val_main_call3_v0_apply, val_main_call3_cst_apply]
  exact congrArg₂ (· * ·) (congrArg x6 (funext fun a => by match a with | ⟨0, _⟩ => rfl | ⟨1, _⟩ => rfl))
    (congrArg (rect x10) (funext fun a => by match a with | ⟨0, _⟩ => rfl | ⟨1, _⟩ => rfl))

/-! ## The six results -/

/-- The excitatory spikes. -/
theorem spikes_e (x1 x2 : S2048x4096.Idx → EReal) : val_main_v32 (F := Ideal) x1 x2 = spikesOf 0x3D4CCCCD#32 x1 x2 :=
  funext fun i => rfl

/-- The inhibitory spikes. -/
theorem spikes_i (x3 x4 : S2048x1024.Idx → EReal) : val_main_v52 (F := Ideal) x3 x4 = spikesOf 0x3DCCCCCD#32 x3 x4 :=
  funext fun i => rfl

/-- The excitatory potentials after the reset. -/
theorem potential_e (x1 x2 : S2048x4096.Idx → EReal) : val_main_v38 (F := Ideal) x1 x2 = potentialOf 0x3D4CCCCD#32 x1 x2 :=
  funext fun i => rfl

/-- The inhibitory potentials after the reset. -/
theorem potential_i (x3 x4 : S2048x1024.Idx → EReal) : val_main_v58 (F := Ideal) x3 x4 = potentialOf 0x3DCCCCCD#32 x3 x4 :=
  funext fun i => rfl

/-- The excitatory currents: the decayed current plus the drive. -/
theorem current_e (x0 : S2048x1024.Idx → EReal) (x2 x5 : S2048x4096.Idx → EReal) (x6 : S2048x1024.Idx → EReal) (x7 : S4096x4096.Idx → EReal)
    (x9 x11 : S4096x1024.Idx → EReal) :
    val_main_v39 (F := Ideal) x0 x2 x5 x6 x7 x9 x11 = fun y => current (x2 y) (drive x0 x5 x6 x11 x7 x9 (y 0) (y 1)) := by
  funext i
  rw [val_main_v39_apply, val_main_v18_apply, val_main_v10_apply, in_e, pos_e, neg_e, val_main_v27_apply, val_main_v26_apply,
    val_main_cst_1_apply]
  rfl

/-- The inhibitory currents: the decayed current plus the drive. -/
theorem current_i (x0 x4 : S2048x1024.Idx → EReal) (x5 : S2048x4096.Idx → EReal) (x6 : S2048x1024.Idx → EReal) (x8 : S1024x4096.Idx → EReal)
    (x10 x12 : S1024x1024.Idx → EReal) :
    val_main_v59 (F := Ideal) x0 x4 x5 x6 x8 x10 x12 = fun y => current (x4 y) (drive x0 x5 x6 x12 x8 x10 (y 0) (y 1)) := by
  funext i
  rw [val_main_v59_apply, val_main_v19_apply, val_main_v17_apply, in_i, pos_i, neg_i, val_main_v47_apply, val_main_v46_apply,
    val_main_cst_8_apply]
  rfl

end Cert.ReferenceIdeal.Step

end
-- ==== Proof.LibFiniteEntries.lean ====
/-
  Finite entries are real entries.

  A precondition "every entry of this array is finite" is, as a program, a reduction by `and` over all axes of the
  elementwise test `max x (−x) < w`, with `w` the word of `+∞` broadcast from a scalar; several such tests are joined by
  `and`s of one-bit words.  On the extended reals this reads back as: when the result is one, every element test is one,
  and an extended real whose magnitude is below `⊤` is neither `⊤` nor `⊥` (`max ⊤ _ = ⊤`, `max ⊥ (−⊥) = ⊤`), so it is
  a real.  The statements are for any shape, any axes and any evidence of the reduction to a shape of one index.
-/
import proofs.«153620_j18176301596897_2_alg».proof.Proof.LibIsReal
import Idealize.ShloMosaic.Lib.ReduceAll
import Idealize.ShloMosaic.Lib.ValueIdx
import Idealize.ShloMosaic.Lib.IdealHost

noncomputable section

namespace Cert.LibFiniteEntries

open Idealize.ShloMosaic Idealize.ShloMosaic.ValueIdx Cert.LibIsReal

/-- The shape of a scalar has exactly one index. -/
instance subsingleton_scalarIdx : Subsingleton (⟨0, ![]⟩ : Shape).Idx := ⟨fun a b => funext fun d => d.elim0⟩

/-- A conjunction of one-bit arrays is one at an index exactly when both arrays are one there. -/
theorem andi_apply_eq_one {s : Shape} (x y : IVec s 1) (i : s.Idx) : andi x y i = 1#1 ↔ x i = 1#1 ∧ y i = 1#1 :=
  IntOp.andi_eq_one

/-- An extended real whose magnitude `max x (−x)` compares below `⊤` is a real: the magnitude of `⊤` and of `⊥` is `⊤`. -/
theorem isReal_of_mag_lt_top (x : EReal) (h : Ideal.cmp .olt (max x (-x)) ⊤ = 1#1) : IsReal x := by
  have hlt : max x (-x) < ⊤ := by
    by_contra hn
    simp [Ideal.cmp, hn] at h
  induction x using EReal.rec with
  | bot => simp at hlt
  | coe r => exact ⟨r, rfl⟩
  | top => simp at hlt

/-- The single-precision word `0x7F800000` is `+∞`. -/
theorem ofBits_f32_inf : Ideal.ofBits .f32 0x7F800000#32 = (⊤ : EReal) := by simp [Ideal.ofBits, Ideal.ieee]

/-- An extended real whose magnitude compares below the single-precision word of `+∞` is a real. -/
theorem isReal_of_mag_lt_inf (x : EReal)
    (h : Ideal.cmp .olt (max x (-x)) (Ideal.ofBits .f32 0x7F800000#32) = 1#1) : IsReal x :=
  isReal_of_mag_lt_top x (ofBits_f32_inf ▸ h)

/-- If the reduction by `and`, over all axes, of the elementwise tests `|a i| < w` is one, `w` a word of `+∞` in the
    array's format broadcast from a scalar, then every entry of `a` is a real. -/
theorem real_of_all_lt_word {S T u : Shape} [Subsingleton T.Idx] {φ : FTy} {axes : List (Fin S.rank)} (a : FVec Ideal S φ)
    (w : BitVec φ.bits) (hw : Ideal.ofBits φ w = (⊤ : EReal))
    (hb : (⟨0, ![]⟩ : Shape).BroadcastsInDim S (![] : Fin 0 → Fin S.rank)) (hr : S.ReducesTo axes T) (hu : 0 < u.numel)
    (init : IVec u 1) (j : T.Idx)
    (e : Host.reduce IntOp.andi
          (cmpf .olt (Host.absf a) (broadcastInDim S ![] hb (constant (F := Ideal) ⟨0, ![]⟩ φ w))) init hr hu j = 1#1)
    (i : S.Idx) : IsReal (a i) := by
  have hi := Host.reduce_andi_all _ init hr hu j e i
  rw [cmpf_apply, broadcastInDim_scalar_apply] at hi
  refine isReal_of_mag_lt_top (a i) ?_
  rw [← hw]; exact hi

/-- The single-precision case: if the reduction by `and`, over all axes, of the tests `|a i| < +∞` is one, every entry of
    `a` is a real. -/
theorem real_of_all_lt_inf {S T u : Shape} [Subsingleton T.Idx] {axes : List (Fin S.rank)} (a : FVec Ideal S .f32)
    (hb : (⟨0, ![]⟩ : Shape).BroadcastsInDim S (![] : Fin 0 → Fin S.rank)) (hr : S.ReducesTo axes T) (hu : 0 < u.numel)
    (init : IVec u 1) (j : T.Idx)
    (e : Host.reduce IntOp.andi
          (cmpf .olt (Host.absf a) (broadcastInDim S ![] hb (constant (F := Ideal) ⟨0, ![]⟩ .f32 0x7F800000#32)))
          init hr hu j = 1#1)
    (i : S.Idx) : IsReal (a i) :=
  real_of_all_lt_word a _ ofBits_f32_inf hb hr hu init j e i

end Cert.LibFiniteEntries

end
-- ==== Proof.Finite.lean ====
/-
  From finite inputs to real entries.

  The precondition is the conjunction, over the thirteen arguments, of "every entry has magnitude below `+∞`".  The law
  that joins the two spellings of the drive negates a sum term by term, which needs the summands to be reals; the
  summands are products of an inhibitory spike with a rectified inhibitory weight.  So three of the thirteen conjuncts are
  used: the inhibitory spikes and the two inhibitory weight matrices hold reals.
-/
import proofs.«153620_j18176301596897_2_alg».proof.Proof.Gen.Pre_finite_inputs
import proofs.«153620_j18176301596897_2_alg».proof.Proof.LibFiniteEntries

noncomputable section

namespace Cert.FiniteInputs

open Idealize.ShloMosaic Idealize.ShloMosaic.ValueIdx Cert.LibIsReal Cert.LibFiniteEntries Cert.Pre_finite_inputs

/-- When the precondition's test is one, every entry of the inhibitory spikes (the seventh argument) and of the two
    inhibitory weight matrices (the tenth and eleventh) is a real. -/
theorem reals_of_test (a0 : FVec Ideal S2048x1024 .f32) (a1 a2 : FVec Ideal S2048x4096 .f32) (a3 a4 : FVec Ideal S2048x1024 .f32)
    (a5 : FVec Ideal S2048x4096 .f32) (a6 : FVec Ideal S2048x1024 .f32) (a7 : FVec Ideal S4096x4096 .f32) (a8 : FVec Ideal S1024x4096 .f32)
    (a9 : FVec Ideal S4096x1024 .f32) (a10 : FVec Ideal S1024x1024 .f32) (a11 : FVec Ideal S4096x1024 .f32) (a12 : FVec Ideal S1024x1024 .f32)
    (h : Cert.Pre_finite_inputs.fn (F := Ideal) a0 a1 a2 a3 a4 a5 a6 a7 a8 a9 a10 a11 a12 = fun _ => 1#1) :
    (∀ i, IsReal (a6 i)) ∧ (∀ i, IsReal (a9 i)) ∧ (∀ i, IsReal (a10 i)) := by
  have h0 := congrFun h ix0
  dsimp only [Cert.Pre_finite_inputs.fn, Cert.Pre_finite_inputs.fn_part1, Cert.Pre_finite_inputs.fn_part2,
    Cert.Pre_finite_inputs.fn_part3] at h0
  simp only [andi_apply_eq_one] at h0
  obtain ⟨⟨⟨⟨⟨⟨⟨⟨⟨⟨⟨⟨-, -⟩, -⟩, -⟩, -⟩, -⟩, h6⟩, -⟩, -⟩, h9⟩, h10⟩, -⟩, -⟩ := h0
  exact ⟨real_of_all_lt_inf a6 _ _ _ _ _ h6, real_of_all_lt_inf a9 _ _ _ _ _ h9, real_of_all_lt_inf a10 _ _ _ _ _ h10⟩

end Cert.FiniteInputs

end
-- ==== Proof.lean ====
/-
  The two-region spiking layer against its whole-array reference, on the extended reals.

  Both programs advance an excitatory and an inhibitory population of leaky integrate-and-fire neurons by one step.  The
  kernel program does it in two pipelined regions, block by block, from operands the host prepared (casts, rectified
  excitatory weights, rectified and negated inhibitory weights); the reference does it with whole-array operations.
  Spikes and reset potentials are the same pointwise functions of the potentials and currents on both sides.  The new
  currents differ in how the inhibitory recurrent term enters: the kernel adds, last, a product with the negated
  rectified weights; the reference subtracts the product with the rectified weights from the excitatory term.  Under the
  precondition the inhibitory spikes and weights are reals, a sum of reals is negated term by term, and addition is
  associative: the two agree (Proof/LifLaw.lean).  No other entry of the precondition is used.

  The frames of the two kernel programs are the generated ones; the reference's frame is its generated run with the
  results dropped; the idealization rewrote nothing, so `preserves` is trivial.
-/
import proofs.«153620_j18176301596897_2_alg».proof.Defs
import proofs.«153620_j18176301596897_2_alg».proof.Proof.Gen.Kernel
import proofs.«153620_j18176301596897_2_alg».proof.Proof.Gen.Kernel.Skeleton
import proofs.«153620_j18176301596897_2_alg».proof.Proof.Gen.Kernel.Launch
import proofs.«153620_j18176301596897_2_alg».proof.Proof.Gen.Kernel.Points
import proofs.«153620_j18176301596897_2_alg».proof.Proof.Gen.Kernel.Frame
import proofs.«153620_j18176301596897_2_alg».proof.Proof.Gen.KernelIdeal
import proofs.«153620_j18176301596897_2_alg».proof.Proof.Gen.KernelIdeal.Skeleton
import proofs.«153620_j18176301596897_2_alg».proof.Proof.Gen.KernelIdeal.Launch
import proofs.«153620_j18176301596897_2_alg».proof.Proof.Gen.KernelIdeal.Points
import proofs.«153620_j18176301596897_2_alg».proof.Proof.Gen.KernelIdeal.Frame
import proofs.«153620_j18176301596897_2_alg».proof.Proof.Gen.ReferenceIdeal
import proofs.«153620_j18176301596897_2_alg».proof.Proof.Gen.ReferenceIdeal.Run
import proofs.«153620_j18176301596897_2_alg».proof.Proof.Gen.ReferenceIdeal.Read
import proofs.«153620_j18176301596897_2_alg».proof.Proof.Gen.Pre_finite_inputs
import proofs.«153620_j18176301596897_2_alg».proof.Proof.KernelValue
import proofs.«153620_j18176301596897_2_alg».proof.Proof.RefStep
import proofs.«153620_j18176301596897_2_alg».proof.Proof.Finite
import Idealize.ShloMosaic.Adequacy
import Idealize.ShloMosaic.Init

noncomputable section

namespace Cert.Proof

open Idealize.ShloMosaic Idealize.ShloMosaic.TcCoe Idealize.SL.Sem Cert.Lif

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2.2.2.2.2) (Cert.ReferenceIdeal.Value.run (F := Ideal) m ρ)

theorem preserves : Cert.preserves_Kernel_KernelIdeal := trivial

/-- From memories that agree on the arguments, both programs end with the same six arrays: spikes, reset potentials and
    new currents of the two populations. -/
theorem algebraic : Cert.algebraic_KernelIdeal_ReferenceIdeal := by
  intro m ρ m' ρ' hpre hagree
  refine ⟨_, _, _, _, _, _, Cert.KernelIdeal.Whole.run m ρ, ?_⟩
  refine (θ_run Cert.ReferenceIdeal.defs _ _).mono (fun r h c => ?_) (Cert.ReferenceIdeal.Value.run (F := Ideal) m' ρ')
  obtain ⟨h0, h1, h2, h3, h4, h5, hargs⟩ := h c
  obtain ⟨a0, a1, a2, a3, a4, a5, a6, a7, a8, a9, a10, a11, a12⟩ := hagree c
  obtain ⟨hsi, hWei, hWii⟩ := Cert.FiniteInputs.reals_of_test _ _ _ _ _ _ _ _ _ _ _ _ _ (hpre c)
  refine ⟨h0.trans ?_, h1.trans ?_, h2.trans ?_, h3.trans ?_, h4.trans ?_, h5.trans ?_, hargs⟩
  · rw [Cert.ReferenceIdeal.Read.val_main_v32_eq, Cert.ReferenceIdeal.Step.spikes_e, a1, a2]
  · rw [Cert.ReferenceIdeal.Read.val_main_v52_eq, Cert.ReferenceIdeal.Step.spikes_i, a3, a4]
  · rw [Cert.ReferenceIdeal.Read.val_main_v38_eq, Cert.ReferenceIdeal.Step.potential_e, a1, a2]
  · rw [Cert.ReferenceIdeal.Read.val_main_v39_eq, Cert.ReferenceIdeal.Step.current_e, a0, a2, a5, a6, a7, a9, a11]
    exact (currentOf_eq_drive _ _ _ _ _ _ _ hsi hWei).symm
  · rw [Cert.ReferenceIdeal.Read.val_main_v58_eq, Cert.ReferenceIdeal.Step.potential_i, a3, a4]
  · rw [Cert.ReferenceIdeal.Read.val_main_v59_eq, Cert.ReferenceIdeal.Step.current_i, a0, a4, a5, a6, a8, a10, a12]
    exact (currentOf_eq_drive _ _ _ _ _ _ _ hsi hWii).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
